-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S3x128x128 : Shape := ⟨3, ![3, 128, 128]⟩
abbrev S3x128 : Shape := ⟨2, ![3, 128]⟩
abbrev S3 : Shape := ⟨1, ![3]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S3x128 .f32) (main_arg6 : FVec F S3 .f32) (main_arg7 : FVec F S512x128 .f32) (main_arg8 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x640000 32) (main_arg2 : FVec F S3x128x128 .f32) (main_arg3 : FVec F S3x128 .f32) (main_arg4 : FVec F S3x128x128 .f32) (main_arg5 : FVec F S3x128 .f32) (main_arg6 : FVec F S3 .f32) (main_arg7 : FVec F S512x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x640000 : Shape := ⟨2, ![2, 640000]⟩
abbrev S3x128x128 : Shape := ⟨3, ![3, 128, 128]⟩
abbrev S3x128 : Shape := ⟨2, ![3, 128]⟩
abbrev S3 : Shape := ⟨1, ![3]⟩
abbrev S512x128 : Shape := ⟨2, ![512, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S2000x128 : Shape := ⟨2, ![2000, 128]⟩

abbrev nBuf : Space → Nat
  | .hbm => 112
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S3, .f32⟩
  | .hbm, ⟨7, _⟩ => ⟨S512x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S50000x128, .f32⟩
  | .hbm, ⟨24, _⟩ => ⟨S640000x1, .i32⟩
  | .hbm, ⟨25, _⟩ => ⟨S50000x128, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S50000x128, .f32⟩
  | .hbm, ⟨55, _⟩ => ⟨S640000x1, .i32⟩
  | .hbm, ⟨56, _⟩ => ⟨S50000x128, .f32⟩
  | .hbm, ⟨57, _⟩ => ⟨S1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S640000x128, .f32⟩
  | .hbm, ⟨84, _⟩ => ⟨S_, .f32⟩
  | .hbm, ⟨85, _⟩ => ⟨S50000x128, .f32⟩
  | .hbm, ⟨86, _⟩ => ⟨S640000x1, .i32⟩
  | .hbm, ⟨87, _⟩ => ⟨S50000x128, .f32⟩
  | .hbm, ⟨88, _⟩ => ⟨S1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128x128, .f32⟩
  | .hbm, ⟨100, _⟩ => ⟨S128x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S50000x128, .f32⟩
  | .hbm, ⟨106, _⟩ => ⟨S128x128, .f32⟩
  | .hbm, ⟨107, _⟩ => ⟨S128x128, .f32⟩
  | .hbm, ⟨108, _⟩ => ⟨S128x128, .f32⟩
  | .hbm, ⟨109, _⟩ => ⟨S128x128, .f32⟩
  | .hbm, ⟨110, _⟩ => ⟨S1x128, .f32⟩
  | .hbm, ⟨111, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v73) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v85) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v88) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v89) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v90) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S3x128x128 : Shape := ⟨3, ![3, 128, 128]⟩
abbrev S3x128 : Shape := ⟨2, ![3, 128]⟩
abbrev S3 : Shape := ⟨1, ![3]⟩
abbrev S512x128 : Shape := ⟨2, ![512, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S50000x512 : Shape := ⟨2, ![50000, 512]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x640000, .i32⟩
  | 2 => ⟨S3x128x128, .f32⟩
  | 3 => ⟨S3x128, .f32⟩
  | 4 => ⟨S3x128x128, .f32⟩
  | 5 => ⟨S3x128, .f32⟩
  | 6 => ⟨S3, .f32⟩
  | 7 => ⟨S512x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .f32⟩
  | 23 => ⟨S50000x128, .f32⟩
  | 24 => ⟨S640000x1, .i32⟩
  | 25 => ⟨S50000x128, .f32⟩
  | 26 => ⟨S1, .f32⟩
  | 27 => ⟨S_, .f32⟩
  | 28 => ⟨S_, .f32⟩
  | 29 => ⟨S_, .f32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S_, .f32⟩
  | 65 => ⟨S50000x128, .f32⟩
  | 66 => ⟨S640000x1, .i32⟩
  | 67 => ⟨S50000x128, .f32⟩
  | 68 => ⟨S1, .f32⟩
  | 69 => ⟨S_, .f32⟩
  | 70 => ⟨S_, .f32⟩
  | 71 => ⟨S_, .f32⟩
  | 72 => ⟨S50000x128, .f32⟩
  | 73 => ⟨S50000x128, .f32⟩
  | 74 => ⟨S50000x128, .f32⟩
  | 75 => ⟨S1x128x128, .f32⟩
  | 76 => ⟨S128x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S_, .f32⟩
  | 107 => ⟨S50000x128, .f32⟩
  | 108 => ⟨S640000x1, .i32⟩
  | 109 => ⟨S50000x128, .f32⟩
  | 110 => ⟨S1, .f32⟩
  | 111 => ⟨S_, .f32⟩
  | 112 => ⟨S_, .f32⟩
  | 113 => ⟨S_, .f32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x512, .f32⟩
  | 12 => ⟨S50000x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_c_2 : Ref sig .tc := ⟨.hbm, 55, rfl⟩
abbrev main_v38 : Ref sig .tc := ⟨.hbm, 56, rfl⟩
abbrev main_v39 : Ref sig .tc := ⟨.hbm, 57, rfl⟩
abbrev main_c_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call2_cst : Ref sig .tc := ⟨.hbm, 83, rfl⟩
abbrev main_call2_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call3_cst : Ref sig .tc := ⟨.hbm, 94, rfl⟩
abbrev main_call3_v0 : Ref sig .tc := ⟨.hbm, 95, rfl⟩
abbrev main_v71 : Ref sig .tc := ⟨.hbm, 96, rfl⟩
abbrev main_c_6 : Ref sig .tc := ⟨.hbm, 97, rfl⟩
abbrev main_v72 : Ref sig .tc := ⟨.hbm, 98, rfl⟩
abbrev main_v73 : Ref sig .tc := ⟨.hbm, 99, rfl⟩
abbrev main_c_7 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_8 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_9 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_call4_cst : Ref sig .tc := ⟨.hbm, 125, rfl⟩
abbrev main_call4_v0 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call5_cst : Ref sig .tc := ⟨.hbm, 136, rfl⟩
abbrev main_call5_v0 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x512_S512x128_S50000x128_1_0_0_1_n_n_wf : DotDims.WF S50000x512 S512x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.ValueRun.lean ====
/-
  The run of the whole program with its result named.

  The program is eight stretches in a row: host operations, then a pipelined region, four times over. Every weakly
  fair execution runs through them in order, and at the end every buffer the program does not scope holds the
  contents the last boundary names (`W8`: the launch memory pushed through each stretch of host operations and
  each region's write-backs in turn). Read at the nine argument buffers this gives "the arguments end unchanged";
  read at the result buffer it gives the result: the result array ends at `W8` of its buffer. What that is, as a
  function of the arguments, is the business of the other modules.
-/
import proofs.«134524_j16475494547884_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents of its buffer and the nine arguments as launched. -/
theorem run : θ_run defs (onTc (τ := τ) (main (F := F))) ⟨m, fun _ => 0, ρ⟩ (fun r => ∀ c : Dev nD,
      r.2.mem ((c.tc : Thread nD τ).loc main_v90) = W8 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v90 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.ValueRun

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.Layers.lean ====
/-
  The layers of the graph network, entry by entry, over the extended reals.

  A node's features pass through a two-layer perceptron: a linear map of the 128 input features plus a bias,
  clipped below at zero, and the same once more. The readout adds four linear maps — of the input features and
  of the three perceptrons' outputs, each against its own 128 rows of one 512-row weight matrix — and a bias.
  Every value here is a function of ONE row of its operands, which is what lets a block of rows be computed
  by itself: `mlp_congr` and `readout_congr`. The last law, `sum_four_blocks`, splits a sum of 512 terms into
  its four consecutive runs of 128; it holds in any commutative additive monoid, so no entry has to be finite.
-/
import Idealize.ShloMosaic.PureOps.Ideal
import Idealize.ShloMosaic.Lib.ValueIdx
import proofs.«134524_j16475494547884_1_alg».proof.Proof.LibBlockSum

noncomputable section

namespace Gin

open Idealize.ShloMosaic Idealize.ShloMosaic.ValueIdx

/-- The lower clip of every `max(·, 0)` in the network: the float word of zero, read as an extended real. Both
    programs compare with this same word, so its value is never needed. -/
abbrev clip0 : EReal := Ideal.ofBits .f32 0x00000000#32

/-- A matrix of `n` rows of 128 features. -/
abbrev Rows (n : ℕ) : Type := (⟨2, ![n, 128]⟩ : Shape).Idx → EReal
/-- A 128 × 128 weight matrix, input feature first. -/
abbrev Weights : Type := (⟨2, ![128, 128]⟩ : Shape).Idx → EReal

variable {n n' : ℕ}

/-- One linear layer clipped at zero, at row `r` and output feature `q`: `max (Σ_k z(r,k) · W(k,q) + b(q), 0)`. -/
def dense (z : Rows n) (W : Weights) (b : Fin 128 → EReal) (r : Fin n) (q : Fin 128) : EReal :=
  max ((∑ k : Fin 128, z (ix2 r k) * W (ix2 k q)) + b q) clip0

/-- The two-layer perceptron at row `r` and output feature `q`: the clipped linear layer of the clipped linear
    layer's 128 outputs on that row. -/
def mlp (z : Rows n) (W1 : Weights) (b1 : Fin 128 → EReal) (W2 : Weights) (b2 : Fin 128 → EReal)
    (r : Fin n) (q : Fin 128) : EReal :=
  max ((∑ k : Fin 128, dense z W1 b1 r k * W2 (ix2 k q)) + b2 q) clip0

/-- The readout at row `r` and output feature `q`: four 128-term products, added left to right, plus the bias. -/
def readout (x h1 h2 h3 : Rows n) (f0 f1 f2 f3 : Weights) (fb : Fin 128 → EReal) (r : Fin n) (q : Fin 128) : EReal :=
  ((((∑ k : Fin 128, x (ix2 r k) * f0 (ix2 k q)) + ∑ k : Fin 128, h1 (ix2 r k) * f1 (ix2 k q))
      + ∑ k : Fin 128, h2 (ix2 r k) * f2 (ix2 k q)) + ∑ k : Fin 128, h3 (ix2 r k) * f3 (ix2 k q)) + fb q

/-- A clipped linear layer reads its input on one row only. -/
theorem dense_congr (z : Rows n) (z' : Rows n') (W : Weights) (b : Fin 128 → EReal) (r : Fin n) (r' : Fin n')
    (h : ∀ k : Fin 128, z (ix2 r k) = z' (ix2 r' k)) (q : Fin 128) : dense z W b r q = dense z' W b r' q := by
  unfold dense
  exact congrArg (fun s => max (s + b q) clip0) (Finset.sum_congr rfl fun k _ => by rw [h k])

/-- The perceptron reads its input on one row only: a row of a block is that row of the whole matrix. -/
theorem mlp_congr (z : Rows n) (z' : Rows n') (W1 : Weights) (b1 : Fin 128 → EReal) (W2 : Weights) (b2 : Fin 128 → EReal)
    (r : Fin n) (r' : Fin n') (h : ∀ k : Fin 128, z (ix2 r k) = z' (ix2 r' k)) (q : Fin 128) :
    mlp z W1 b1 W2 b2 r q = mlp z' W1 b1 W2 b2 r' q := by
  unfold mlp
  exact congrArg (fun s => max (s + b2 q) clip0)
    (Finset.sum_congr rfl fun k _ => by rw [dense_congr z z' W1 b1 r r' h k])

/-- The perceptron is the clipped linear layer of ANY matrix whose row `r` holds the first layer's 128 outputs. -/
theorem dense_of_dense (a z : Rows n) (W1 : Weights) (b1 : Fin 128 → EReal) (W2 : Weights) (b2 : Fin 128 → EReal)
    (r : Fin n) (h : ∀ k : Fin 128, a (ix2 r k) = dense z W1 b1 r k) (q : Fin 128) :
    dense a W2 b2 r q = mlp z W1 b1 W2 b2 r q :=
  congrArg (fun s => max (s + b2 q) clip0) (Finset.sum_congr rfl fun k _ => by rw [h k])

/-- The readout reads each of its four inputs on one row only. -/
theorem readout_congr (x h1 h2 h3 : Rows n) (x' h1' h2' h3' : Rows n') (f0 f1 f2 f3 : Weights) (fb : Fin 128 → EReal)
    (r : Fin n) (r' : Fin n') (e0 : ∀ k : Fin 128, x (ix2 r k) = x' (ix2 r' k))
    (e1 : ∀ k : Fin 128, h1 (ix2 r k) = h1' (ix2 r' k)) (e2 : ∀ k : Fin 128, h2 (ix2 r k) = h2' (ix2 r' k))
    (e3 : ∀ k : Fin 128, h3 (ix2 r k) = h3' (ix2 r' k)) (q : Fin 128) :
    readout x h1 h2 h3 f0 f1 f2 f3 fb r q = readout x' h1' h2' h3' f0 f1 f2 f3 fb r' q := by
  unfold readout
  simp only [e0, e1, e2, e3]

/-- A bias stored as a one-row matrix, as a function of the feature. -/
abbrev BiasRow : Type := (⟨2, ![1, 128]⟩ : Shape).Idx → EReal

/-- The perceptron of every row: the array of `n` rows whose entry (r, q) is `mlp` of row `r`, the biases given as
    one-row matrices. -/
def mlpArray (z : Rows n) (W1 : Weights) (b1 : BiasRow) (W2 : Weights) (b2 : BiasRow) : Rows n :=
  fun i => mlp z W1 (fun k => b1 (ix2 (0 : Fin 1) k)) W2 (fun k => b2 (ix2 (0 : Fin 1) k)) (i 0) (i 1)

/-- The readout of every row, the bias given as a one-row matrix. -/
def readoutArray (x h1 h2 h3 : Rows n) (f0 f1 f2 f3 : Weights) (fb : BiasRow) : Rows n :=
  fun i => readout x h1 h2 h3 f0 f1 f2 f3 (fun k => fb (ix2 (0 : Fin 1) k)) (i 0) (i 1)

/-- A sum of 512 terms is the sum of its four consecutive runs of 128, added left to right. -/
theorem sum_four_blocks {M : Type*} [AddCommMonoid M] (g : Fin 512 → M) :
    ∑ j : Fin 512, g j
      = (((∑ k : Fin 128, g ⟨k.val, by omega⟩) + ∑ k : Fin 128, g ⟨128 + k.val, by omega⟩)
          + ∑ k : Fin 128, g ⟨256 + k.val, by omega⟩) + ∑ k : Fin 128, g ⟨384 + k.val, by omega⟩ := by
  have h := BlockSum.sum_blocks 4 128 (fun i : Fin (4 * 128) => g ⟨i.val, i.isLt⟩)
  rw [Fin.sum_univ_four] at h
  refine (Eq.trans ?_ h).symm
  refine congrArg₂ (· + ·) (congrArg₂ (· + ·) (congrArg₂ (· + ·) ?_ ?_) ?_) ?_ <;>
    exact Finset.sum_congr rfl fun k _ => congrArg g (Fin.ext (by simp <;> omega))

end Gin

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.BodyValues.lean ====
/-
  What the two kernel bodies compute, entry by entry.

  The perceptron body takes a block of 2000 rows, two 128 × 128 weight matrices and two bias rows, and stores
  max(max(block · W1 + b1, 0) · W2 + b2, 0): at row p and feature q of the block this is the two-layer
  perceptron `Gin.mlp` of the block's row p. The readout body takes four blocks of 2000 rows, four weight
  matrices and one bias row and stores 0 + block₀ · F0 + block₁ · F1 + block₂ · F2 + block₃ · F3 + bias: the
  readout `Gin.readout` of row p, the leading zero dropped. Roundings to the short float format are the identity on
  extended reals; a product into a zero accumulator is the plain sum over the 128 contracted features; a bias row
  broadcast over the block's rows is read on its one row.
-/
import proofs.«134524_j16475494547884_1_alg».proof.Proof.Gen.KernelIdeal.Skeleton
import proofs.«134524_j16475494547884_1_alg».proof.Proof.Layers
import proofs.«134524_j16475494547884_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The bodies' one product shape: 2000 × 128 against 128 × 128, the left operand's second axis contracted with
    the right operand's first. -/
theorem dot_plain : dot_S2000x128_S128x128_S2000x128_1_0_0_1_n_n = DotDims.plain 2000 128 128 := rfl

/-- A bias row, cast to its own shape and broadcast over the 2000 rows, is read on its one row. -/
theorem bias_apply (b : FVec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- A block times a weight matrix (both rounded, the matrix first cast to its own shape) into the zero accumulator,
    at row `p` and feature `q`: the sum over the 128 contracted features. -/
theorem product_apply (a : FVec Ideal S2000x128 .f32) (w : FVec Ideal S128x128 .f32) (p : Fin 2000) (q : Fin 128) :
    matmul dot_S2000x128_S128x128_S2000x128_1_0_0_1_n_n none (truncf .bf16 a bitsLt_bf16_f32)
        (truncf .bf16 (shapeCast S128x128 w shapeCasts_S128x128_S128x128) bitsLt_bf16_f32)
        (constant S2000x128 .f32 0x00000000#32) (ix2 p q)
      = ∑ k : Fin 128, a (ix2 p k) * w (ix2 k q) := by
  rw [shapeCast_self, dot_plain]
  exact LibPlainDot.matmul_zero_apply none (truncf .bf16 a bitsLt_bf16_f32) (truncf .bf16 w bitsLt_bf16_f32) p q

/-- One layer of the perceptron body — product, bias, clip — at row `p` and feature `q`. -/
theorem layer_apply (a : FVec Ideal S2000x128 .f32) (w : FVec Ideal S128x128 .f32) (b : FVec Ideal S1x128 .f32)
    (p : Fin 2000) (q : Fin 128) :
    maximumf (addf (matmul dot_S2000x128_S128x128_S2000x128_1_0_0_1_n_n none (truncf .bf16 a bitsLt_bf16_f32)
          (truncf .bf16 (shapeCast S128x128 w shapeCasts_S128x128_S128x128) bitsLt_bf16_f32)
          (constant S2000x128 .f32 0x00000000#32))
        (broadcastTo S2000x128 (shapeCast S1x128 b shapeCasts_S1x128_S1x128) broadcasts_S1x128_S2000x128))
      (broadcast S2000x128 (Scalar.ofBits .f32 0x00000000#32)) (ix2 p q)
      = Gin.dense a w (fun k => b (ix2 (0 : Fin 1) k)) p q := by
  show max (_ + _) Gin.clip0 = max (_ + _) Gin.clip0
  rw [product_apply a w p q, bias_apply b p q]

/-- THE PERCEPTRON BODY at row `p` and feature `q` of its block. -/
theorem mlp_apply (x0 : FVec Ideal S2000x128 .f32) (x1 : FVec Ideal S128x128 .f32) (x2 : FVec Ideal S1x128 .f32)
    (x3 : FVec Ideal S128x128 .f32) (x4 : FVec Ideal S1x128 .f32) (p : Fin 2000) (q : Fin 128) :
    k0_pay1 (F := Ideal) x0 x1 x2 x3 x4 (ix2 p q)
      = Gin.mlp x0 x1 (fun k => x2 (ix2 (0 : Fin 1) k)) x3 (fun k => x4 (ix2 (0 : Fin 1) k)) p q := by
  unfold k0_pay1
  refine (layer_apply _ x3 x4 p q).trans ?_
  refine Gin.dense_of_dense _ x0 x1 _ x3 _ p (fun k => ?_) q
  refine (layer_apply _ x1 x2 p k).trans ?_
  rw [shapeCast_self]

/-- The second and third regions' perceptron bodies are the same text as the first's. -/
theorem mlp_apply1 (x0 : FVec Ideal S2000x128 .f32) (x1 : FVec Ideal S128x128 .f32) (x2 : FVec Ideal S1x128 .f32)
    (x3 : FVec Ideal S128x128 .f32) (x4 : FVec Ideal S1x128 .f32) (p : Fin 2000) (q : Fin 128) :
    k1_pay1 (F := Ideal) x0 x1 x2 x3 x4 (ix2 p q)
      = Gin.mlp x0 x1 (fun k => x2 (ix2 (0 : Fin 1) k)) x3 (fun k => x4 (ix2 (0 : Fin 1) k)) p q :=
  mlp_apply x0 x1 x2 x3 x4 p q

theorem mlp_apply2 (x0 : FVec Ideal S2000x128 .f32) (x1 : FVec Ideal S128x128 .f32) (x2 : FVec Ideal S1x128 .f32)
    (x3 : FVec Ideal S128x128 .f32) (x4 : FVec Ideal S1x128 .f32) (p : Fin 2000) (q : Fin 128) :
    k2_pay1 (F := Ideal) x0 x1 x2 x3 x4 (ix2 p q)
      = Gin.mlp x0 x1 (fun k => x2 (ix2 (0 : Fin 1) k)) x3 (fun k => x4 (ix2 (0 : Fin 1) k)) p q :=
  mlp_apply x0 x1 x2 x3 x4 p q

/-- THE READOUT BODY at row `p` and feature `q` of its blocks: the four products added left to right onto the zero it
    starts from, then the bias row; the zero is the additive unit. -/
theorem readout_apply (v1 : FVec Ideal S2000x128 .f32) (v3 : FVec Ideal S128x128 .f32) (v8 : FVec Ideal S2000x128 .f32)
    (v11 : FVec Ideal S128x128 .f32) (v16 : FVec Ideal S2000x128 .f32) (v19 : FVec Ideal S128x128 .f32)
    (v24 : FVec Ideal S2000x128 .f32) (v27 : FVec Ideal S128x128 .f32) (v32 : FVec Ideal S1x128 .f32)
    (p : Fin 2000) (q : Fin 128) :
    k3_pay1 (F := Ideal) v1 v3 v8 v11 v16 v19 v24 v27 v32 (ix2 p q)
      = Gin.readout v1 v8 v16 v24 v3 v11 v19 v27 (fun k => v32 (ix2 (0 : Fin 1) k)) p q := by
  unfold k3_pay1
  show ((((Ideal.ofBits .f32 0x00000000#32 + _) + _) + _) + _) + _ = ((((_) + _) + _) + _) + _
  rw [product_apply v1 v3 p q, product_apply _ v11 p q, product_apply _ v19 p q, product_apply _ v27 p q,
    bias_apply v32 p q, Ideal.ofBits_zero_f32, zero_add]
  simp only [shapeCast_self]

end Cert.KernelIdeal.Body

end
-- ==== Proof.RegionMlp0.lean ====
/-
  Region 0: the perceptron applied to all 50000 rows, 2000 rows at a time.

  The region walks 25 grid points. At point t it is handed rows 2000·t … 2000·t + 1999 of its input matrix and the
  whole of its two weight matrices and two bias rows, runs the perceptron body on them, and writes the body's
  2000 rows back to rows 2000·t … of its output. So what point t writes back is block t of ONE array — the
  perceptron of every row of the input (`Gin.mlpArray`), because the perceptron of a row reads that row only —, the 25
  blocks fill the output, and the output ends holding that array. Everything is stated at whatever contents `V` the
  region finds its five input arrays at.
-/
import proofs.«134524_j16475494547884_1_alg».proof.Proof.Gen.KernelIdeal.Frame
import proofs.«134524_j16475494547884_1_alg».proof.Proof.BodyValues
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the input matrix's block moves with the output's, down
    the rows; the weights and bias rows stay at their one block; the output's row block is one of 0 … 24. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every one of the 25 row blocks of the output is some point's. -/
theorem idx_onto : ∀ (b : Fin 25), ∃ t : Fin cfg0.N, win0_5.index t = ![b.val, 0] :=
  (by decide +kernel : ∀ (b : Fin 25), ∃ t : Fin grid0.N, win0_5.index t = ![b.val, 0])

/-- The row of the arrays that row `p` of point `t`'s blocks is. -/
def rowAt (t : Fin cfg0.N) (p : Fin 2000) : Fin 50000 :=
  ⟨win0_5.index t (0 : Fin 2) * 2000 + p.val, by
    have h := (idx_facts t).2.2.2.2.2.2.2.2.2.2.2
    have hp := p.isLt
    omega⟩

/-- The first weight matrix's block is the whole matrix. -/
theorem blk1 (c : Dev nD) (t : Fin cfg0.N) : iblk0 V c 1 t = V c main_v21 := by
  obtain ⟨-, -, e0, e1, -⟩ := idx_facts t
  funext y
  unfold iblk0
  rw [View.read_apply]
  show V c main_v21 _ = V c main_v21 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias row's block is the whole row. -/
theorem blk2 (c : Dev nD) (t : Fin cfg0.N) : iblk0 V c 2 t = V c main_v28 := by
  obtain ⟨-, -, -, -, e0, e1, -⟩ := idx_facts t
  funext y
  unfold iblk0
  rw [View.read_apply]
  show V c main_v28 _ = V c main_v28 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix's block is the whole matrix. -/
theorem blk3 (c : Dev nD) (t : Fin cfg0.N) : iblk0 V c 3 t = V c main_v25 := by
  obtain ⟨-, -, -, -, -, -, e0, e1, -⟩ := idx_facts t
  funext y
  unfold iblk0
  rw [View.read_apply]
  show V c main_v25 _ = V c main_v25 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row's block is the whole row. -/
theorem blk4 (c : Dev nD) (t : Fin cfg0.N) : iblk0 V c 4 t = V c main_v29 := by
  obtain ⟨-, -, -, -, -, -, -, -, e0, e1, -⟩ := idx_facts t
  funext y
  unfold iblk0
  rw [View.read_apply]
  show V c main_v29 _ = V c main_v29 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Row `p` of the input matrix's block at point `t` is row `rowAt t p` of the matrix. -/
theorem blk0 (c : Dev nD) (t : Fin cfg0.N) (p : Fin 2000) (k : Fin 128) :
    iblk0 V c 0 t (ix2 p k) = V c main_v19 (ix2 (rowAt t p) k) := by
  obtain ⟨e0, e1, -⟩ := idx_facts t
  unfold iblk0
  rw [View.read_apply]
  show V c main_v19 _ = V c main_v19 _
  refine congrArg _ (funext fun a => Fin.ext ?_)
  match a with
  | ⟨0, _⟩ => show win0_0.index t (0 : Fin 2) * 2000 + 1 * p.val = win0_5.index t (0 : Fin 2) * 2000 + p.val; omega
  | ⟨1, _⟩ => show win0_0.index t (1 : Fin 2) * 128 + 1 * k.val = k.val; omega

/-- Entry (p, q) of the output's block at point `t` is entry (`rowAt t p`, q) of the output. -/
theorem out_emb (t : Fin cfg0.N) (p : Fin 2000) (q : Fin 128) :
    ((cfg0.win 5).blk t).view.emb (ix2 p q) = ix2 (rowAt t p) q := by
  obtain ⟨-, -, -, -, -, -, -, -, -, -, e1, -⟩ := idx_facts t
  refine funext fun a => Fin.ext ?_
  match a with
  | ⟨0, _⟩ => show win0_5.index t (0 : Fin 2) * 2000 + 1 * p.val = win0_5.index t (0 : Fin 2) * 2000 + p.val; omega
  | ⟨1, _⟩ => show win0_5.index t (1 : Fin 2) * 128 + 1 * q.val = q.val; omega

/-- WHAT POINT `t` WRITES BACK is block `t` of the perceptron of every row of the input the region finds. -/
theorem flushed_eq (c : Dev nD) (t : Fin cfg0.N) :
    (dat0 V c).flushed 5 t = ((cfg0.win 5).blk t).view.read (Elt Ideal)
      (Gin.mlpArray (V c main_v19) (V c main_v21) (V c main_v28) (V c main_v25) (V c main_v29)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
      = Gin.mlpArray (V c main_v19) (V c main_v21) (V c main_v28) (V c main_v25) (V c main_v29) (((cfg0.win 5).blk t).view.emb (ix2 p q))
  refine (Body.mlp_apply (iblk0 V c 0 t) (iblk0 V c 1 t) (iblk0 V c 2 t) (iblk0 V c 3 t) (iblk0 V c 4 t) p q).trans ?_
  rw [blk1 V c t, blk2 V c t, blk3 V c t, blk4 V c t, out_emb t p q]
  exact Gin.mlp_congr _ _ _ _ _ _ p (rowAt t p) (fun k => blk0 V c t p k) q

/-- An index of the output is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v30).slice (win0_5.rect t)).set ↔ _
  rw [View.set_slice_whole, Rect.mem_set_unit]
  exact Iff.rfl

/-- The 25 blocks fill the output: row r lies in the block of the point whose row block is r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- THE OUTPUT after the region: the perceptron of every row of the input, of the arrays as the region finds them. -/
theorem final (c : Dev nD) :
    (dat0 V c).arrAt 5 cfg0.N = Gin.mlpArray (V c main_v19) (V c main_v21) (V c main_v28) (V c main_v25) (V c main_v29) :=
  (dat0 V c).arrAt_eq_of_cover 5 _ (fun t _ => flushed_eq V c t) cover

end Cert.KernelIdeal.Region0

end
-- ==== Proof.HostLayers.lean ====
/-
  The reference's own operations, layer by layer, are the layers of `Gin`.

  The reference computes a perceptron with two whole-matrix products, each followed by the bias vector broadcast
  over the rows and a maximum against a broadcast zero (`hostMlp`). Entry by entry that is `Gin.mlpArray`: the
  host's product at (r, q) is the sum over the 128 contracted features, the twice-broadcast bias at (r, q) is the
  vector's entry q — which is also entry (0, q) of the vector stored as a one-row matrix, the form the kernel
  passes it in —, the broadcast zero is the zero word everywhere.
  The reference's readout (`hostReadout`) joins the four 128-feature matrices side by side into one of 512 features
  and multiplies by the whole 512 × 128 weight matrix. At (r, q) that is a sum of 512 terms; its four consecutive
  runs of 128 read the four matrices in turn against the four 128-row slices of the weights, so the sum is the four
  128-term products added left to right: `Gin.readoutArray` of the slices. Only commutativity and associativity of
  addition are used; nothing has to be finite.
-/
import proofs.«134524_j16475494547884_1_alg».proof.ReferenceIdeal
import proofs.«134524_j16475494547884_1_alg».proof.Proof.Gen.ReferenceIdeal
import proofs.«134524_j16475494547884_1_alg».proof.Proof.Layers
import proofs.«134524_j16475494547884_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.HostLayers

open Cert.ReferenceIdeal Cert.ReferenceIdeal.Gen Idealize.ShloMosaic Idealize.ShloMosaic.ValueIdx

/-- The reference's perceptron: product, broadcast bias, maximum with a broadcast zero, twice. -/
def hostMlp (z : FVec Ideal S50000x128 .f32) (W1 : FVec Ideal S128x128 .f32) (b1 : FVec Ideal S128 .f32)
    (W2 : FVec Ideal S128x128 .f32) (b2 : FVec Ideal S128 .f32) : FVec Ideal S50000x128 .f32 :=
  maximumf
    (addf
      (Host.dotGeneral dot_S50000x128_S128x128_S50000x128_1_0_0_1_n_n none
        (maximumf
          (addf (Host.dotGeneral dot_S50000x128_S128x128_S50000x128_1_0_0_1_n_n none z W1)
            (broadcastInDim S50000x128 ![0, 1] bcast_S1x128_S50000x128_0_1 (broadcastInDim S1x128 ![1] bcast_S128_S1x128_1 b1)))
          (broadcastInDim S50000x128 ![] bcast_S_S50000x128 (constant S_ .f32 0x00000000#32)))
        W2)
      (broadcastInDim S50000x128 ![0, 1] bcast_S1x128_S50000x128_0_1 (broadcastInDim S1x128 ![1] bcast_S128_S1x128_1 b2)))
    (broadcastInDim S50000x128 ![] bcast_S_S50000x128 (constant S_ .f32 0x00000000#32))

/-- The reference's readout: the four matrices joined along the features, times the whole weight matrix, plus the
    broadcast bias. -/
def hostReadout (x h1 h2 h3 : FVec Ideal S50000x128 .f32) (fw : FVec Ideal S512x128 .f32) (fb : FVec Ideal S128 .f32) :
    FVec Ideal S50000x128 .f32 :=
  addf
    (Host.dotGeneral dot_S50000x512_S512x128_S50000x128_1_0_0_1_n_n none
      (concatenate S50000x512 1 [⟨S50000x128, x⟩, ⟨S50000x128, h1⟩, ⟨S50000x128, h2⟩, ⟨S50000x128, h3⟩]
        concatenates_S50000x128_S50000x128_S50000x128_S50000x128_S50000x512_d1)
      fw)
    (broadcastInDim S50000x128 ![0, 1] bcast_S1x128_S50000x128_0_1 (broadcastInDim S1x128 ![1] bcast_S128_S1x128_1 fb))

theorem dot128_plain : dot_S50000x128_S128x128_S50000x128_1_0_0_1_n_n = DotDims.plain 50000 128 128 := rfl
theorem dot512_plain : dot_S50000x512_S512x128_S50000x128_1_0_0_1_n_n = DotDims.plain 50000 512 128 := rfl

/-- The host's 128-feature product at (r, q). -/
theorem dot128_apply (l : FVec Ideal S50000x128 .f32) (w : FVec Ideal S128x128 .f32) (r : Fin 50000) (q : Fin 128) :
    Host.dotGeneral dot_S50000x128_S128x128_S50000x128_1_0_0_1_n_n none l w (ix2 r q)
      = ∑ k : Fin 128, l (ix2 r k) * w (ix2 k q) := by
  simp only [Host.dotGeneral]
  rw [dot128_plain]
  exact LibPlainDot.dotGeneral_apply none _ l w r q

/-- The host's 512-feature product at (r, q). -/
theorem dot512_apply (l : FVec Ideal S50000x512 .f32) (w : FVec Ideal S512x128 .f32) (r : Fin 50000) (q : Fin 128) :
    Host.dotGeneral dot_S50000x512_S512x128_S50000x128_1_0_0_1_n_n none l w (ix2 r q)
      = ∑ k : Fin 512, l (ix2 r k) * w (ix2 k q) := by
  simp only [Host.dotGeneral]
  rw [dot512_plain]
  exact LibPlainDot.dotGeneral_apply none _ l w r q

/-- A bias vector broadcast to a row and then over the 50000 rows, at (r, q): the vector's entry q. -/
theorem bias_apply (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  refine (broadcastInDim_apply _ bcast_S1x128_S50000x128_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (128 : Nat) = 1 then 0 else q.val; rw [if_neg (by decide)]
  · refine broadcastInDim_apply _ bcast_S128_S1x128_1 b (ix2 (0 : Fin 1) q) (ix1 q) (fun a => ?_)
    match a with
    | ⟨0, _⟩ => show q.val = if (128 : Nat) = 1 then 0 else q.val; rw [if_neg (by decide)]

/-- The broadcast zero is the zero word at every entry. -/
theorem zeros_apply (i : S50000x128.Idx) :
    broadcastInDim S50000x128 ![] bcast_S_S50000x128 (constant (F := Ideal) S_ .f32 0x00000000#32) i = Gin.clip0 :=
  broadcastInDim_apply _ bcast_S_S50000x128 _ i ix0 (fun a => a.elim0)

/-- One layer of the reference's perceptron at (r, q). -/
theorem hostDense_apply (a : FVec Ideal S50000x128 .f32) (w : FVec Ideal S128x128 .f32) (b : FVec Ideal S128 .f32)
    (r : Fin 50000) (q : Fin 128) :
    maximumf
        (addf (Host.dotGeneral dot_S50000x128_S128x128_S50000x128_1_0_0_1_n_n none a w)
          (broadcastInDim S50000x128 ![0, 1] bcast_S1x128_S50000x128_0_1 (broadcastInDim S1x128 ![1] bcast_S128_S1x128_1 b)))
        (broadcastInDim S50000x128 ![] bcast_S_S50000x128 (constant S_ .f32 0x00000000#32)) (ix2 r q)
      = Gin.dense a w (fun k => b (ix1 k)) r q := by
  show max (_ + _) _ = max (_ + _) Gin.clip0
  rw [dot128_apply a w r q, bias_apply b r q, zeros_apply]

/-- THE REFERENCE'S PERCEPTRON is the perceptron of every row, the bias vectors read as one-row matrices. -/
theorem hostMlp_eq (z : FVec Ideal S50000x128 .f32) (W1 : FVec Ideal S128x128 .f32) (b1 : FVec Ideal S128 .f32)
    (W2 : FVec Ideal S128x128 .f32) (b2 : FVec Ideal S128 .f32) (hc : S128.ShapeCasts S1x128) :
    hostMlp z W1 b1 W2 b2 = Gin.mlpArray z W1 (shapeCast S1x128 b1 hc) W2 (shapeCast S1x128 b2 hc) := by
  funext i
  obtain ⟨r, q, rfl⟩ : ∃ (r : Fin 50000) (q : Fin 128), i = ix2 r q := ⟨i 0, i 1, eq_ix2 i⟩
  unfold hostMlp Gin.mlpArray
  have e1 : (fun k : Fin 128 => shapeCast S1x128 b1 hc (ix2 (0 : Fin 1) k)) = fun k => b1 (ix1 k) :=
    funext fun k => shapeCast_a_1a_apply b1 hc 0 k
  have e2 : (fun k : Fin 128 => shapeCast S1x128 b2 hc (ix2 (0 : Fin 1) k)) = fun k => b2 (ix1 k) :=
    funext fun k => shapeCast_a_1a_apply b2 hc 0 k
  show _ = Gin.mlp z W1 _ W2 _ r q
  rw [e1, e2]
  refine (hostDense_apply _ W2 b2 r q).trans ?_
  exact Gin.dense_of_dense _ z W1 _ W2 _ r (fun k => hostDense_apply z W1 b1 r k) q

/-- The four matrices joined along the features, at feature `128·j + k` of row `r`: matrix `j` at feature `k`. -/
theorem concat_apply0 (x h1 h2 h3 : FVec Ideal S50000x128 .f32) (r : Fin 50000) (k : Fin 128) :
    concatenate S50000x512 1 [⟨S50000x128, x⟩, ⟨S50000x128, h1⟩, ⟨S50000x128, h2⟩, ⟨S50000x128, h3⟩]
        concatenates_S50000x128_S50000x128_S50000x128_S50000x128_S50000x512_d1 (ix2 r (⟨k.val, by omega⟩ : Fin 512))
      = x (ix2 r k) := by
  refine concatenate_apply_piece (t := S50000x512) (1 : Fin 2) [⟨S50000x128, x⟩, ⟨S50000x128, h1⟩, ⟨S50000x128, h2⟩, ⟨S50000x128, h3⟩] concatenates_S50000x128_S50000x128_S50000x128_S50000x128_S50000x512_d1 _ 0 (by simp) S50000x128 x rfl rfl 0 rfl (ix2 r k) (fun b hb => ?_) ?_
  · match b with
    | ⟨0, _⟩ => rfl
    | ⟨1, _⟩ => exact absurd rfl hb
  · show 0 + k.val = k.val
    omega

theorem concat_apply1 (x h1 h2 h3 : FVec Ideal S50000x128 .f32) (r : Fin 50000) (k : Fin 128) :
    concatenate S50000x512 1 [⟨S50000x128, x⟩, ⟨S50000x128, h1⟩, ⟨S50000x128, h2⟩, ⟨S50000x128, h3⟩]
        concatenates_S50000x128_S50000x128_S50000x128_S50000x128_S50000x512_d1 (ix2 r (⟨128 + k.val, by omega⟩ : Fin 512))
      = h1 (ix2 r k) := by
  refine concatenate_apply_piece (t := S50000x512) (1 : Fin 2) [⟨S50000x128, x⟩, ⟨S50000x128, h1⟩, ⟨S50000x128, h2⟩, ⟨S50000x128, h3⟩] concatenates_S50000x128_S50000x128_S50000x128_S50000x128_S50000x512_d1 _ 1 (by simp) S50000x128 h1 rfl rfl 128 rfl (ix2 r k) (fun b hb => ?_) ?_
  · match b with
    | ⟨0, _⟩ => rfl
    | ⟨1, _⟩ => exact absurd rfl hb
  · rfl

theorem concat_apply2 (x h1 h2 h3 : FVec Ideal S50000x128 .f32) (r : Fin 50000) (k : Fin 128) :
    concatenate S50000x512 1 [⟨S50000x128, x⟩, ⟨S50000x128, h1⟩, ⟨S50000x128, h2⟩, ⟨S50000x128, h3⟩]
        concatenates_S50000x128_S50000x128_S50000x128_S50000x128_S50000x512_d1 (ix2 r (⟨256 + k.val, by omega⟩ : Fin 512))
      = h2 (ix2 r k) := by
  refine concatenate_apply_piece (t := S50000x512) (1 : Fin 2) [⟨S50000x128, x⟩, ⟨S50000x128, h1⟩, ⟨S50000x128, h2⟩, ⟨S50000x128, h3⟩] concatenates_S50000x128_S50000x128_S50000x128_S50000x128_S50000x512_d1 _ 2 (by simp) S50000x128 h2 rfl rfl 256 rfl (ix2 r k) (fun b hb => ?_) ?_
  · match b with
    | ⟨0, _⟩ => rfl
    | ⟨1, _⟩ => exact absurd rfl hb
  · rfl

theorem concat_apply3 (x h1 h2 h3 : FVec Ideal S50000x128 .f32) (r : Fin 50000) (k : Fin 128) :
    concatenate S50000x512 1 [⟨S50000x128, x⟩, ⟨S50000x128, h1⟩, ⟨S50000x128, h2⟩, ⟨S50000x128, h3⟩]
        concatenates_S50000x128_S50000x128_S50000x128_S50000x128_S50000x512_d1 (ix2 r (⟨384 + k.val, by omega⟩ : Fin 512))
      = h3 (ix2 r k) := by
  refine concatenate_apply_piece (t := S50000x512) (1 : Fin 2) [⟨S50000x128, x⟩, ⟨S50000x128, h1⟩, ⟨S50000x128, h2⟩, ⟨S50000x128, h3⟩] concatenates_S50000x128_S50000x128_S50000x128_S50000x128_S50000x512_d1 _ 3 (by simp) S50000x128 h3 rfl rfl 384 rfl (ix2 r k) (fun b hb => ?_) ?_
  · match b with
    | ⟨0, _⟩ => rfl
    | ⟨1, _⟩ => exact absurd rfl hb
  · rfl

/-- THE REFERENCE'S READOUT is the readout of every row against the four 128-row slices of the weights, the bias
    vector read as a one-row matrix. -/
theorem hostReadout_eq (x h1 h2 h3 : FVec Ideal S50000x128 .f32) (fw : FVec Ideal S512x128 .f32) (fb : FVec Ideal S128 .f32)
    (hs0 : S512x128.Slices ![0, 0] S128x128) (hs1 : S512x128.Slices ![128, 0] S128x128)
    (hs2 : S512x128.Slices ![256, 0] S128x128) (hs3 : S512x128.Slices ![384, 0] S128x128) (hc : S128.ShapeCasts S1x128) :
    hostReadout x h1 h2 h3 fw fb
      = Gin.readoutArray x h1 h2 h3 (extractStridedSlice S128x128 ![0, 0] fw hs0) (extractStridedSlice S128x128 ![128, 0] fw hs1)
          (extractStridedSlice S128x128 ![256, 0] fw hs2) (extractStridedSlice S128x128 ![384, 0] fw hs3) (shapeCast S1x128 fb hc) := by
  funext i
  obtain ⟨r, q, rfl⟩ : ∃ (r : Fin 50000) (q : Fin 128), i = ix2 r q := ⟨i 0, i 1, eq_ix2 i⟩
  unfold hostReadout Gin.readoutArray
  show _ + _ = Gin.readout x h1 h2 h3 _ _ _ _ _ r q
  rw [dot512_apply _ fw r q, bias_apply fb r q, Gin.sum_four_blocks]
  unfold Gin.readout
  beta_reduce
  rw [shapeCast_a_1a_apply fb hc 0 q]
  refine congrArg (· + fb (ix1 q)) ?_
  refine congrArg₂ (· + ·) (congrArg₂ (· + ·) (congrArg₂ (· + ·) ?_ ?_) ?_) ?_
  · refine Finset.sum_congr rfl fun k _ => ?_
    rw [concat_apply0 x h1 h2 h3 r k, slice2_axis0_eq 0 fw hs0 k q]
    exact congrArg (fun j => x (ix2 r k) * fw (ix2 j q)) (Fin.ext (Nat.zero_add _).symm)
  · refine Finset.sum_congr rfl fun k _ => ?_
    rw [concat_apply1 x h1 h2 h3 r k, slice2_axis0_eq 128 fw hs1 k q]
  · refine Finset.sum_congr rfl fun k _ => ?_
    rw [concat_apply2 x h1 h2 h3 r k, slice2_axis0_eq 256 fw hs2 k q]
  · refine Finset.sum_congr rfl fun k _ => ?_
    rw [concat_apply3 x h1 h2 h3 r k, slice2_axis0_eq 384 fw hs3 k q]

end Cert.ReferenceIdeal.HostLayers

end
-- ==== Proof.Boundary1.lean ====
/-
  Up to the end of the first perceptron region.

  The program's first stretch of host operations prepares the first region's five inputs from the launched
  arguments: the combined features (1 + ε₀) · x + Σ_{edges into the node} x[source] — the same gather, scatter-add,
  scale and add the reference applies, so it is carried as the reference's own function of the arguments and never
  opened —, the first layer's two weight matrices (slices of the stacked weights) and its two bias vectors, each
  stored as a one-row matrix. It also computes the source and destination index vectors that the later stretches
  read again. The region then leaves in its output the perceptron of every row of those inputs, which is the
  reference's first hidden layer `val_main_v37` of the arguments. A buffer no operation writes and no region uses
  keeps what it held.
-/
import proofs.«134524_j16475494547884_1_alg».proof.Proof.Gen.KernelIdeal.Frame
import proofs.«134524_j16475494547884_1_alg».proof.Proof.Gen.ReferenceIdeal.Read
import proofs.«134524_j16475494547884_1_alg».proof.Proof.RegionMlp0
import proofs.«134524_j16475494547884_1_alg».proof.Proof.HostLayers
import Idealize.ShloMosaic.Lib.StableHlo.Run

noncomputable section

namespace Cert.KernelIdeal.Bound

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v19 val_main_v21 val_main_v24 val_main_v30 val_main_v33 val_main_v37)

variable (m : (ℓ : Loc nD τ sig) → Buf (Elt Ideal) ℓ) (ρ : Dev nD → PrngReg) (c : Dev nD)

/-! ## The nine argument arrays as launched -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-! ## After the first stretch of host operations -/

/-- The combined features the first region reads: the reference's own term of the features, the edges and ε. -/
theorem W1_v19 : W1 m ρ c (Proc.devRef .tc main_v19) = val_main_v19 (F := Ideal) (a0 m c) (a1 m c) (a6 m c) := by
  show StableHlo.after hostOps0 (W0 m ρ c) (Proc.devRef .tc main_v19) = _
  after_results_simp
  rfl

/-- The first layer's first weight matrix. -/
theorem W1_v21 : W1 m ρ c (Proc.devRef .tc main_v21) = val_main_v21 (F := Ideal) (a2 m c) := by
  show StableHlo.after hostOps0 (W0 m ρ c) (Proc.devRef .tc main_v21) = _
  after_results_simp
  rfl

/-- The first layer's first bias vector, as a one-row matrix. -/
theorem W1_v28 : W1 m ρ c (Proc.devRef .tc main_v28)
    = shapeCast S1x128 (val_main_v24 (F := Ideal) (a3 m c)) shapeCasts_S128_S1x128 := by
  show StableHlo.after hostOps0 (W0 m ρ c) (Proc.devRef .tc main_v28) = _
  after_results_simp
  rfl

/-- The first layer's second weight matrix. -/
theorem W1_v25 : W1 m ρ c (Proc.devRef .tc main_v25) = val_main_v30 (F := Ideal) (a4 m c) := by
  show StableHlo.after hostOps0 (W0 m ρ c) (Proc.devRef .tc main_v25) = _
  after_results_simp
  rfl

/-- The first layer's second bias vector, as a one-row matrix. -/
theorem W1_v29 : W1 m ρ c (Proc.devRef .tc main_v29)
    = shapeCast S1x128 (val_main_v33 (F := Ideal) (a5 m c)) shapeCasts_S128_S1x128 := by
  show StableHlo.after hostOps0 (W0 m ρ c) (Proc.devRef .tc main_v29) = _
  after_results_simp
  rfl

/-- The edges' source nodes. -/
theorem W1_v1 : W1 m ρ c (Proc.devRef .tc main_v1) = val_main_v1 (F := Ideal) (a1 m c) := by
  show StableHlo.after hostOps0 (W0 m ρ c) (Proc.devRef .tc main_v1) = _
  after_results_simp
  rfl

/-- The edges' destination nodes. -/
theorem W1_v3 : W1 m ρ c (Proc.devRef .tc main_v3) = val_main_v3 (F := Ideal) (a1 m c) := by
  show StableHlo.after hostOps0 (W0 m ρ c) (Proc.devRef .tc main_v3) = _
  after_results_simp
  rfl

/-- No operation of the first stretch writes an argument. -/
theorem W1_arg : ∀ b ∈ ([main_arg0, main_arg2, main_arg3, main_arg4, main_arg5, main_arg6, main_arg7, main_arg8] : List (Ref sig .tc)),
    W1 m ρ c (Proc.devRef .tc b) = m ((c : Thread nD τ).loc b) := by
  intro b hb
  simp only [List.mem_cons, List.mem_nil_iff, or_false] at hb
  rcases hb with rfl | rfl | rfl | rfl | rfl | rfl | rfl | rfl <;>
    (show StableHlo.after hostOps0 (W0 m ρ c) _ = _; after_results_simp)

/-! ## After the first region -/

/-- THE FIRST HIDDEN LAYER: the region's output is the reference's first hidden layer of the arguments. -/
theorem W2_v30 : W2 m ρ c (Proc.devRef .tc main_v30)
    = val_main_v37 (F := Ideal) (a0 m c) (a1 m c) (a2 m c) (a3 m c) (a4 m c) (a5 m c) (a6 m c) := by
  refine (W2_arr m ρ c 5).trans ((Region0.final (V1 m ρ) c).trans ?_)
  show Gin.mlpArray (W1 m ρ c (Proc.devRef .tc main_v19)) (W1 m ρ c (Proc.devRef .tc main_v21))
      (W1 m ρ c (Proc.devRef .tc main_v28)) (W1 m ρ c (Proc.devRef .tc main_v25)) (W1 m ρ c (Proc.devRef .tc main_v29)) = _
  rw [W1_v19, W1_v21, W1_v28, W1_v25, W1_v29]
  exact (Cert.ReferenceIdeal.HostLayers.hostMlp_eq _ _ _ _ _ _).symm

/-- The region touches its own six arrays only: the index vectors and the arguments keep what they held. -/
theorem W2_v1 : W2 m ρ c (Proc.devRef .tc main_v1) = val_main_v1 (F := Ideal) (a1 m c) :=
  (W2_of_ne m ρ c main_v1 (by decide)).trans (W1_v1 m ρ c)
theorem W2_v3 : W2 m ρ c (Proc.devRef .tc main_v3) = val_main_v3 (F := Ideal) (a1 m c) :=
  (W2_of_ne m ρ c main_v3 (by decide)).trans (W1_v3 m ρ c)
theorem W2_arg0 : W2 m ρ c (Proc.devRef .tc main_arg0) = a0 m c :=
  (W2_of_ne m ρ c main_arg0 (by decide)).trans (W1_arg m ρ c main_arg0 (by simp))
theorem W2_arg2 : W2 m ρ c (Proc.devRef .tc main_arg2) = a2 m c :=
  (W2_of_ne m ρ c main_arg2 (by decide)).trans (W1_arg m ρ c main_arg2 (by simp))
theorem W2_arg3 : W2 m ρ c (Proc.devRef .tc main_arg3) = a3 m c :=
  (W2_of_ne m ρ c main_arg3 (by decide)).trans (W1_arg m ρ c main_arg3 (by simp))
theorem W2_arg4 : W2 m ρ c (Proc.devRef .tc main_arg4) = a4 m c :=
  (W2_of_ne m ρ c main_arg4 (by decide)).trans (W1_arg m ρ c main_arg4 (by simp))
theorem W2_arg5 : W2 m ρ c (Proc.devRef .tc main_arg5) = a5 m c :=
  (W2_of_ne m ρ c main_arg5 (by decide)).trans (W1_arg m ρ c main_arg5 (by simp))
theorem W2_arg6 : W2 m ρ c (Proc.devRef .tc main_arg6) = a6 m c :=
  (W2_of_ne m ρ c main_arg6 (by decide)).trans (W1_arg m ρ c main_arg6 (by simp))
theorem W2_arg7 : W2 m ρ c (Proc.devRef .tc main_arg7) = a7 m c :=
  (W2_of_ne m ρ c main_arg7 (by decide)).trans (W1_arg m ρ c main_arg7 (by simp))
theorem W2_arg8 : W2 m ρ c (Proc.devRef .tc main_arg8) = a8 m c :=
  (W2_of_ne m ρ c main_arg8 (by decide)).trans (W1_arg m ρ c main_arg8 (by simp))

end Cert.KernelIdeal.Bound

end
-- ==== Proof.RegionMlp1.lean ====
/-
  Region 1: the perceptron applied to all 50000 rows, 2000 rows at a time.

  The region walks 25 grid points. At point t it is handed rows 2000·t … 2000·t + 1999 of its input matrix and the
  whole of its two weight matrices and two bias rows, runs the perceptron body on them, and writes the body's
  2000 rows back to rows 2000·t … of its output. So what point t writes back is block t of ONE array — the
  perceptron of every row of the input (`Gin.mlpArray`), because the perceptron of a row reads that row only —, the 25
  blocks fill the output, and the output ends holding that array. Everything is stated at whatever contents `V` the
  region finds its five input arrays at.
-/
import proofs.«134524_j16475494547884_1_alg».proof.Proof.Gen.KernelIdeal.Frame
import proofs.«134524_j16475494547884_1_alg».proof.Proof.BodyValues
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the input matrix's block moves with the output's, down
    the rows; the weights and bias rows stay at their one block; the output's row block is one of 0 … 24. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every one of the 25 row blocks of the output is some point's. -/
theorem idx_onto : ∀ (b : Fin 25), ∃ t : Fin cfg1.N, win1_5.index t = ![b.val, 0] :=
  (by decide +kernel : ∀ (b : Fin 25), ∃ t : Fin grid1.N, win1_5.index t = ![b.val, 0])

/-- The row of the arrays that row `p` of point `t`'s blocks is. -/
def rowAt (t : Fin cfg1.N) (p : Fin 2000) : Fin 50000 :=
  ⟨win1_5.index t (0 : Fin 2) * 2000 + p.val, by
    have h := (idx_facts t).2.2.2.2.2.2.2.2.2.2.2
    have hp := p.isLt
    omega⟩

/-- The first weight matrix's block is the whole matrix. -/
theorem blk1 (c : Dev nD) (t : Fin cfg1.N) : iblk1 V c 1 t = V c main_v48 := by
  obtain ⟨-, -, e0, e1, -⟩ := idx_facts t
  funext y
  unfold iblk1
  rw [View.read_apply]
  show V c main_v48 _ = V c main_v48 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias row's block is the whole row. -/
theorem blk2 (c : Dev nD) (t : Fin cfg1.N) : iblk1 V c 2 t = V c main_v55 := by
  obtain ⟨-, -, -, -, e0, e1, -⟩ := idx_facts t
  funext y
  unfold iblk1
  rw [View.read_apply]
  show V c main_v55 _ = V c main_v55 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weight matrix's block is the whole matrix. -/
theorem blk3 (c : Dev nD) (t : Fin cfg1.N) : iblk1 V c 3 t = V c main_v52 := by
  obtain ⟨-, -, -, -, -, -, e0, e1, -⟩ := idx_facts t
  funext y
  unfold iblk1
  rw [View.read_apply]
  show V c main_v52 _ = V c main_v52 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias row's block is the whole row. -/
theorem blk4 (c : Dev nD) (t : Fin cfg1.N) : iblk1 V c 4 t = V c main_v56 := by
  obtain ⟨-, -, -, -, -, -, -, -, e0, e1, -⟩ := idx_facts t
  funext y
  unfold iblk1
  rw [View.read_apply]
  show V c main_v56 _ = V c main_v56 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Row `p` of the input matrix's block at point `t` is row `rowAt t p` of the matrix. -/
theorem blk0 (c : Dev nD) (t : Fin cfg1.N) (p : Fin 2000) (k : Fin 128) :
    iblk1 V c 0 t (ix2 p k) = V c main_v46 (ix2 (rowAt t p) k) := by
  obtain ⟨e0, e1, -⟩ := idx_facts t
  unfold iblk1
  rw [View.read_apply]
  show V c main_v46 _ = V c main_v46 _
  refine congrArg _ (funext fun a => Fin.ext ?_)
  match a with
  | ⟨0, _⟩ => show win1_0.index t (0 : Fin 2) * 2000 + 1 * p.val = win1_5.index t (0 : Fin 2) * 2000 + p.val; omega
  | ⟨1, _⟩ => show win1_0.index t (1 : Fin 2) * 128 + 1 * k.val = k.val; omega

/-- Entry (p, q) of the output's block at point `t` is entry (`rowAt t p`, q) of the output. -/
theorem out_emb (t : Fin cfg1.N) (p : Fin 2000) (q : Fin 128) :
    ((cfg1.win 5).blk t).view.emb (ix2 p q) = ix2 (rowAt t p) q := by
  obtain ⟨-, -, -, -, -, -, -, -, -, -, e1, -⟩ := idx_facts t
  refine funext fun a => Fin.ext ?_
  match a with
  | ⟨0, _⟩ => show win1_5.index t (0 : Fin 2) * 2000 + 1 * p.val = win1_5.index t (0 : Fin 2) * 2000 + p.val; omega
  | ⟨1, _⟩ => show win1_5.index t (1 : Fin 2) * 128 + 1 * q.val = q.val; omega

/-- WHAT POINT `t` WRITES BACK is block `t` of the perceptron of every row of the input the region finds. -/
theorem flushed_eq (c : Dev nD) (t : Fin cfg1.N) :
    (dat1 V c).flushed 5 t = ((cfg1.win 5).blk t).view.read (Elt Ideal)
      (Gin.mlpArray (V c main_v46) (V c main_v48) (V c main_v55) (V c main_v52) (V c main_v56)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
      = Gin.mlpArray (V c main_v46) (V c main_v48) (V c main_v55) (V c main_v52) (V c main_v56) (((cfg1.win 5).blk t).view.emb (ix2 p q))
  refine (Body.mlp_apply1 (iblk1 V c 0 t) (iblk1 V c 1 t) (iblk1 V c 2 t) (iblk1 V c 3 t) (iblk1 V c 4 t) p q).trans ?_
  rw [blk1 V c t, blk2 V c t, blk3 V c t, blk4 V c t, out_emb t p q]
  exact Gin.mlp_congr _ _ _ _ _ _ p (rowAt t p) (fun k => blk0 V c t p k) q

/-- An index of the output is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v57).slice (win1_5.rect t)).set ↔ _
  rw [View.set_slice_whole, Rect.mem_set_unit]
  exact Iff.rfl

/-- The 25 blocks fill the output: row r lies in the block of the point whose row block is r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- THE OUTPUT after the region: the perceptron of every row of the input, of the arrays as the region finds them. -/
theorem final (c : Dev nD) :
    (dat1 V c).arrAt 5 cfg1.N = Gin.mlpArray (V c main_v46) (V c main_v48) (V c main_v55) (V c main_v52) (V c main_v56) :=
  (dat1 V c).arrAt_eq_of_cover 5 _ (fun t _ => flushed_eq V c t) cover

end Cert.KernelIdeal.Region1

end
-- ==== Proof.Boundary3.lean ====
/-
  From the first hidden layer to the second.

  The second stretch of host operations builds the second region's inputs exactly as the first stretch built the
  first region's, with the first hidden layer in place of the input features: (1 + ε₁) · h₁ + Σ_{edges into the node}
  h₁[source], and the second layer's weight matrices and one-row biases. With the first hidden layer already known to
  be the reference's (`W2_v30`), these are the reference's own terms of the arguments, and the region's output is the
  reference's second hidden layer `val_main_v71`. The index vectors, the arguments and the first hidden layer are
  not written by any of this.
-/
import proofs.«134524_j16475494547884_1_alg».proof.Proof.Gen.KernelIdeal.Frame
import proofs.«134524_j16475494547884_1_alg».proof.Proof.Gen.ReferenceIdeal.Read
import proofs.«134524_j16475494547884_1_alg».proof.Proof.Boundary1
import proofs.«134524_j16475494547884_1_alg».proof.Proof.RegionMlp1
import proofs.«134524_j16475494547884_1_alg».proof.Proof.HostLayers
import Idealize.ShloMosaic.Lib.StableHlo.Run

noncomputable section

namespace Cert.KernelIdeal.Bound

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v37 val_main_v53 val_main_v55 val_main_v58 val_main_v64 val_main_v67 val_main_v71)

variable (m : (ℓ : Loc nD τ sig) → Buf (Elt Ideal) ℓ) (ρ : Dev nD → PrngReg) (c : Dev nD)

/-! ## After the second stretch of host operations -/

/-- No operation of the second stretch writes an index vector, an argument or the first hidden layer. -/
theorem W3_keep : ∀ b ∈ ([main_v1, main_v3, main_arg0, main_arg2, main_arg3, main_arg4, main_arg5, main_arg6, main_arg7,
      main_arg8, main_v30] : List (Ref sig .tc)),
    W3 m ρ c (Proc.devRef .tc b) = W2 m ρ c (Proc.devRef .tc b) := by
  intro b hb
  simp only [List.mem_cons, List.mem_nil_iff, or_false] at hb
  rcases hb with rfl | rfl | rfl | rfl | rfl | rfl | rfl | rfl | rfl | rfl | rfl <;>
    (show StableHlo.after hostOps1 (W2 m ρ c) _ = _; after_results_simp)

/-- The combined features the second region reads. -/
theorem W3_v46 : W3 m ρ c (Proc.devRef .tc main_v46)
    = val_main_v53 (F := Ideal) (a0 m c) (a1 m c) (a2 m c) (a3 m c) (a4 m c) (a5 m c) (a6 m c) := by
  show StableHlo.after hostOps1 (W2 m ρ c) (Proc.devRef .tc main_v46) = _
  after_results_simp
  rw [W2_v30, W2_v1, W2_v3, W2_arg6]
  rfl

/-- The second layer's first weight matrix. -/
theorem W3_v48 : W3 m ρ c (Proc.devRef .tc main_v48) = val_main_v55 (F := Ideal) (a2 m c) := by
  show StableHlo.after hostOps1 (W2 m ρ c) (Proc.devRef .tc main_v48) = _
  after_results_simp
  rw [W2_arg2]
  rfl

/-- The second layer's first bias vector, as a one-row matrix. -/
theorem W3_v55 : W3 m ρ c (Proc.devRef .tc main_v55)
    = shapeCast S1x128 (val_main_v58 (F := Ideal) (a3 m c)) shapeCasts_S128_S1x128 := by
  show StableHlo.after hostOps1 (W2 m ρ c) (Proc.devRef .tc main_v55) = _
  after_results_simp
  rw [W2_arg3]
  rfl

/-- The second layer's second weight matrix. -/
theorem W3_v52 : W3 m ρ c (Proc.devRef .tc main_v52) = val_main_v64 (F := Ideal) (a4 m c) := by
  show StableHlo.after hostOps1 (W2 m ρ c) (Proc.devRef .tc main_v52) = _
  after_results_simp
  rw [W2_arg4]
  rfl

/-- The second layer's second bias vector, as a one-row matrix. -/
theorem W3_v56 : W3 m ρ c (Proc.devRef .tc main_v56)
    = shapeCast S1x128 (val_main_v67 (F := Ideal) (a5 m c)) shapeCasts_S128_S1x128 := by
  show StableHlo.after hostOps1 (W2 m ρ c) (Proc.devRef .tc main_v56) = _
  after_results_simp
  rw [W2_arg5]
  rfl

/-! ## After the second region -/

/-- THE SECOND HIDDEN LAYER: the region's output is the reference's second hidden layer of the arguments. -/
theorem W4_v57 : W4 m ρ c (Proc.devRef .tc main_v57)
    = val_main_v71 (F := Ideal) (a0 m c) (a1 m c) (a2 m c) (a3 m c) (a4 m c) (a5 m c) (a6 m c) := by
  refine (W4_arr m ρ c 5).trans ((Region1.final (V3 m ρ) c).trans ?_)
  show Gin.mlpArray (W3 m ρ c (Proc.devRef .tc main_v46)) (W3 m ρ c (Proc.devRef .tc main_v48))
      (W3 m ρ c (Proc.devRef .tc main_v55)) (W3 m ρ c (Proc.devRef .tc main_v52)) (W3 m ρ c (Proc.devRef .tc main_v56)) = _
  rw [W3_v46, W3_v48, W3_v55, W3_v52, W3_v56]
  exact (Cert.ReferenceIdeal.HostLayers.hostMlp_eq _ _ _ _ _ _).symm

/-- The region touches its own six arrays only. -/
theorem W4_v1 : W4 m ρ c (Proc.devRef .tc main_v1) = val_main_v1 (F := Ideal) (a1 m c) :=
  (W4_of_ne m ρ c main_v1 (by decide)).trans ((W3_keep m ρ c main_v1 (by simp)).trans (W2_v1 m ρ c))
theorem W4_v3 : W4 m ρ c (Proc.devRef .tc main_v3) = val_main_v3 (F := Ideal) (a1 m c) :=
  (W4_of_ne m ρ c main_v3 (by decide)).trans ((W3_keep m ρ c main_v3 (by simp)).trans (W2_v3 m ρ c))
theorem W4_v30 : W4 m ρ c (Proc.devRef .tc main_v30)
    = val_main_v37 (F := Ideal) (a0 m c) (a1 m c) (a2 m c) (a3 m c) (a4 m c) (a5 m c) (a6 m c) :=
  (W4_of_ne m ρ c main_v30 (by decide)).trans ((W3_keep m ρ c main_v30 (by simp)).trans (W2_v30 m ρ c))
theorem W4_arg0 : W4 m ρ c (Proc.devRef .tc main_arg0) = a0 m c :=
  (W4_of_ne m ρ c main_arg0 (by decide)).trans ((W3_keep m ρ c main_arg0 (by simp)).trans (W2_arg0 m ρ c))
theorem W4_arg2 : W4 m ρ c (Proc.devRef .tc main_arg2) = a2 m c :=
  (W4_of_ne m ρ c main_arg2 (by decide)).trans ((W3_keep m ρ c main_arg2 (by simp)).trans (W2_arg2 m ρ c))
theorem W4_arg3 : W4 m ρ c (Proc.devRef .tc main_arg3) = a3 m c :=
  (W4_of_ne m ρ c main_arg3 (by decide)).trans ((W3_keep m ρ c main_arg3 (by simp)).trans (W2_arg3 m ρ c))
theorem W4_arg4 : W4 m ρ c (Proc.devRef .tc main_arg4) = a4 m c :=
  (W4_of_ne m ρ c main_arg4 (by decide)).trans ((W3_keep m ρ c main_arg4 (by simp)).trans (W2_arg4 m ρ c))
theorem W4_arg5 : W4 m ρ c (Proc.devRef .tc main_arg5) = a5 m c :=
  (W4_of_ne m ρ c main_arg5 (by decide)).trans ((W3_keep m ρ c main_arg5 (by simp)).trans (W2_arg5 m ρ c))
theorem W4_arg6 : W4 m ρ c (Proc.devRef .tc main_arg6) = a6 m c :=
  (W4_of_ne m ρ c main_arg6 (by decide)).trans ((W3_keep m ρ c main_arg6 (by simp)).trans (W2_arg6 m ρ c))
theorem W4_arg7 : W4 m ρ c (Proc.devRef .tc main_arg7) = a7 m c :=
  (W4_of_ne m ρ c main_arg7 (by decide)).trans ((W3_keep m ρ c main_arg7 (by simp)).trans (W2_arg7 m ρ c))
theorem W4_arg8 : W4 m ρ c (Proc.devRef .tc main_arg8) = a8 m c :=
  (W4_of_ne m ρ c main_arg8 (by decide)).trans ((W3_keep m ρ c main_arg8 (by simp)).trans (W2_arg8 m ρ c))

end Cert.KernelIdeal.Bound

end
-- ==== Proof.RegionMlp2.lean ====
/-
  Region 2: the perceptron applied to all 50000 rows, 2000 rows at a time.

  The region walks 25 grid points. At point t it is handed rows 2000·t … 2000·t + 1999 of its input matrix and the
  whole of its two weight matrices and two bias rows, runs the perceptron body on them, and writes the body's
  2000 rows back to rows 2000·t … of its output. So what point t writes back is block t of ONE array — the
  perceptron of every row of the input (`Gin.mlpArray`), because the perceptron of a row reads that row only —, the 25
  blocks fill the output, and the output ends holding that array. Everything is stated at whatever contents `V` the
  region finds its five input arrays at.
-/
import proofs.«134524_j16475494547884_1_alg».proof.Proof.Gen.KernelIdeal.Frame
import proofs.«134524_j16475494547884_1_alg».proof.Proof.BodyValues
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the input matrix's block moves with the output's, down
    the rows; the weights and bias rows stay at their one block; the output's row block is one of 0 … 24. -/
theorem idx_facts : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

/-- Every one of the 25 row blocks of the output is some point's. -/
theorem idx_onto : ∀ (b : Fin 25), ∃ t : Fin cfg2.N, win2_5.index t = ![b.val, 0] :=
  (by decide +kernel : ∀ (b : Fin 25), ∃ t : Fin grid2.N, win2_5.index t = ![b.val, 0])

/-- The row of the arrays that row `p` of point `t`'s blocks is. -/
def rowAt (t : Fin cfg2.N) (p : Fin 2000) : Fin 50000 :=
  ⟨win2_5.index t (0 : Fin 2) * 2000 + p.val, by
    have h := (idx_facts t).2.2.2.2.2.2.2.2.2.2.2
    have hp := p.isLt
    omega⟩

/-- The first weight matrix's block is the whole matrix. -/
theorem blk1 (c : Dev nD) (t : Fin cfg2.N) : iblk2 V c 1 t = V c main_v75 := by
  obtain ⟨-, -, e0, e1, -⟩ := idx_facts t
  funext y
  unfold iblk2
  rw [View.read_apply]
  show V c main_v75 _ = V c main_v75 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias row's block is the whole row. -/
theorem blk2 (c : Dev nD) (t : Fin cfg2.N) : iblk2 V c 2 t = V c main_v82 := by
  obtain ⟨-, -, -, -, e0, e1, -⟩ := idx_facts t
  funext y
  unfold iblk2
  rw [View.read_apply]
  show V c main_v82 _ = V c main_v82 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The second weight matrix's block is the whole matrix. -/
theorem blk3 (c : Dev nD) (t : Fin cfg2.N) : iblk2 V c 3 t = V c main_v79 := by
  obtain ⟨-, -, -, -, -, -, e0, e1, -⟩ := idx_facts t
  funext y
  unfold iblk2
  rw [View.read_apply]
  show V c main_v79 _ = V c main_v79 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias row's block is the whole row. -/
theorem blk4 (c : Dev nD) (t : Fin cfg2.N) : iblk2 V c 4 t = V c main_v83 := by
  obtain ⟨-, -, -, -, -, -, -, -, e0, e1, -⟩ := idx_facts t
  funext y
  unfold iblk2
  rw [View.read_apply]
  show V c main_v83 _ = V c main_v83 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Row `p` of the input matrix's block at point `t` is row `rowAt t p` of the matrix. -/
theorem blk0 (c : Dev nD) (t : Fin cfg2.N) (p : Fin 2000) (k : Fin 128) :
    iblk2 V c 0 t (ix2 p k) = V c main_v73 (ix2 (rowAt t p) k) := by
  obtain ⟨e0, e1, -⟩ := idx_facts t
  unfold iblk2
  rw [View.read_apply]
  show V c main_v73 _ = V c main_v73 _
  refine congrArg _ (funext fun a => Fin.ext ?_)
  match a with
  | ⟨0, _⟩ => show win2_0.index t (0 : Fin 2) * 2000 + 1 * p.val = win2_5.index t (0 : Fin 2) * 2000 + p.val; omega
  | ⟨1, _⟩ => show win2_0.index t (1 : Fin 2) * 128 + 1 * k.val = k.val; omega

/-- Entry (p, q) of the output's block at point `t` is entry (`rowAt t p`, q) of the output. -/
theorem out_emb (t : Fin cfg2.N) (p : Fin 2000) (q : Fin 128) :
    ((cfg2.win 5).blk t).view.emb (ix2 p q) = ix2 (rowAt t p) q := by
  obtain ⟨-, -, -, -, -, -, -, -, -, -, e1, -⟩ := idx_facts t
  refine funext fun a => Fin.ext ?_
  match a with
  | ⟨0, _⟩ => show win2_5.index t (0 : Fin 2) * 2000 + 1 * p.val = win2_5.index t (0 : Fin 2) * 2000 + p.val; omega
  | ⟨1, _⟩ => show win2_5.index t (1 : Fin 2) * 128 + 1 * q.val = q.val; omega

/-- WHAT POINT `t` WRITES BACK is block `t` of the perceptron of every row of the input the region finds. -/
theorem flushed_eq (c : Dev nD) (t : Fin cfg2.N) :
    (dat2 V c).flushed 5 t = ((cfg2.win 5).blk t).view.read (Elt Ideal)
      (Gin.mlpArray (V c main_v73) (V c main_v75) (V c main_v82) (V c main_v79) (V c main_v83)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
      = Gin.mlpArray (V c main_v73) (V c main_v75) (V c main_v82) (V c main_v79) (V c main_v83) (((cfg2.win 5).blk t).view.emb (ix2 p q))
  refine (Body.mlp_apply2 (iblk2 V c 0 t) (iblk2 V c 1 t) (iblk2 V c 2 t) (iblk2 V c 3 t) (iblk2 V c 4 t) p q).trans ?_
  rw [blk1 V c t, blk2 V c t, blk3 V c t, blk4 V c t, out_emb t p q]
  exact Gin.mlp_congr _ _ _ _ _ _ p (rowAt t p) (fun k => blk0 V c t p k) q

/-- An index of the output is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v84).slice (win2_5.rect t)).set ↔ _
  rw [View.set_slice_whole, Rect.mem_set_unit]
  exact Iff.rfl

/-- The 25 blocks fill the output: row r lies in the block of the point whose row block is r / 2000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- THE OUTPUT after the region: the perceptron of every row of the input, of the arrays as the region finds them. -/
theorem final (c : Dev nD) :
    (dat2 V c).arrAt 5 cfg2.N = Gin.mlpArray (V c main_v73) (V c main_v75) (V c main_v82) (V c main_v79) (V c main_v83) :=
  (dat2 V c).arrAt_eq_of_cover 5 _ (fun t _ => flushed_eq V c t) cover

end Cert.KernelIdeal.Region2

end
-- ==== Proof.Boundary5.lean ====
/-
  From the second hidden layer to the third.

  The third stretch of host operations builds the third region's inputs as before, with the second hidden layer in
  place of the first: (1 + ε₂) · h₂ + Σ_{edges into the node} h₂[source], and the third layer's weight matrices and
  one-row biases; the region's output is the reference's third hidden layer `val_main_v105`. From here on only the
  input features, the readout's weights and bias, and the hidden layers are read again; none of them is written by
  this stretch or region.
-/
import proofs.«134524_j16475494547884_1_alg».proof.Proof.Gen.KernelIdeal.Frame
import proofs.«134524_j16475494547884_1_alg».proof.Proof.Gen.ReferenceIdeal.Read
import proofs.«134524_j16475494547884_1_alg».proof.Proof.Boundary3
import proofs.«134524_j16475494547884_1_alg».proof.Proof.RegionMlp2
import proofs.«134524_j16475494547884_1_alg».proof.Proof.HostLayers
import Idealize.ShloMosaic.Lib.StableHlo.Run

noncomputable section

namespace Cert.KernelIdeal.Bound

open Cert.KernelIdeal Cert.KernelIdeal.Gen Idealize.ShloMosaic Idealize.ShloMosaic.TcCoe Idealize.SL.Sem
open Idealize.ShloMosaic.StableHlo
open Cert.ReferenceIdeal.Read (val_main_v37 val_main_v71 val_main_v87 val_main_v89 val_main_v92 val_main_v98 val_main_v101 val_main_v105)

variable (m : (ℓ : Loc nD τ sig) → Buf (Elt Ideal) ℓ) (ρ : Dev nD → PrngReg) (c : Dev nD)

/-! ## After the third stretch of host operations -/

/-- No operation of the third stretch writes the features, the readout's weights or bias, or a hidden layer. -/
theorem W5_keep : ∀ b ∈ ([main_arg0, main_arg7, main_arg8, main_v30, main_v57] : List (Ref sig .tc)),
    W5 m ρ c (Proc.devRef .tc b) = W4 m ρ c (Proc.devRef .tc b) := by
  intro b hb
  simp only [List.mem_cons, List.mem_nil_iff, or_false] at hb
  rcases hb with rfl | rfl | rfl | rfl | rfl <;>
    (show StableHlo.after hostOps2 (W4 m ρ c) _ = _; after_results_simp)

/-- The combined features the third region reads. -/
theorem W5_v73 : W5 m ρ c (Proc.devRef .tc main_v73)
    = val_main_v87 (F := Ideal) (a0 m c) (a1 m c) (a2 m c) (a3 m c) (a4 m c) (a5 m c) (a6 m c) := by
  show StableHlo.after hostOps2 (W4 m ρ c) (Proc.devRef .tc main_v73) = _
  after_results_simp
  rw [W4_v57, W4_v1, W4_v3, W4_arg6]
  rfl

/-- The third layer's first weight matrix. -/
theorem W5_v75 : W5 m ρ c (Proc.devRef .tc main_v75) = val_main_v89 (F := Ideal) (a2 m c) := by
  show StableHlo.after hostOps2 (W4 m ρ c) (Proc.devRef .tc main_v75) = _
  after_results_simp
  rw [W4_arg2]
  rfl

/-- The third layer's first bias vector, as a one-row matrix. -/
theorem W5_v82 : W5 m ρ c (Proc.devRef .tc main_v82)
    = shapeCast S1x128 (val_main_v92 (F := Ideal) (a3 m c)) shapeCasts_S128_S1x128 := by
  show StableHlo.after hostOps2 (W4 m ρ c) (Proc.devRef .tc main_v82) = _
  after_results_simp
  rw [W4_arg3]
  rfl

/-- The third layer's second weight matrix. -/
theorem W5_v79 : W5 m ρ c (Proc.devRef .tc main_v79) = val_main_v98 (F := Ideal) (a4 m c) := by
  show StableHlo.after hostOps2 (W4 m ρ c) (Proc.devRef .tc main_v79) = _
  after_results_simp
  rw [W4_arg4]
  rfl

/-- The third layer's second bias vector, as a one-row matrix. -/
theorem W5_v83 : W5 m ρ c (Proc.devRef .tc main_v83)
    = shapeCast S1x128 (val_main_v101 (F := Ideal) (a5 m c)) shapeCasts_S128_S1x128 := by
  show StableHlo.after hostOps2 (W4 m ρ c) (Proc.devRef .tc main_v83) = _
  after_results_simp
  rw [W4_arg5]
  rfl

/-! ## After the third region -/

/-- THE THIRD HIDDEN LAYER: the region's output is the reference's third hidden layer of the arguments. -/
theorem W6_v84 : W6 m ρ c (Proc.devRef .tc main_v84)
    = val_main_v105 (F := Ideal) (a0 m c) (a1 m c) (a2 m c) (a3 m c) (a4 m c) (a5 m c) (a6 m c) := by
  refine (W6_arr m ρ c 5).trans ((Region2.final (V5 m ρ) c).trans ?_)
  show Gin.mlpArray (W5 m ρ c (Proc.devRef .tc main_v73)) (W5 m ρ c (Proc.devRef .tc main_v75))
      (W5 m ρ c (Proc.devRef .tc main_v82)) (W5 m ρ c (Proc.devRef .tc main_v79)) (W5 m ρ c (Proc.devRef .tc main_v83)) = _
  rw [W5_v73, W5_v75, W5_v82, W5_v79, W5_v83]
  exact (Cert.ReferenceIdeal.HostLayers.hostMlp_eq _ _ _ _ _ _).symm

/-- The region touches its own six arrays only. -/
theorem W6_v30 : W6 m ρ c (Proc.devRef .tc main_v30)
    = val_main_v37 (F := Ideal) (a0 m c) (a1 m c) (a2 m c) (a3 m c) (a4 m c) (a5 m c) (a6 m c) :=
  (W6_of_ne m ρ c main_v30 (by decide)).trans ((W5_keep m ρ c main_v30 (by simp)).trans (W4_v30 m ρ c))
theorem W6_v57 : W6 m ρ c (Proc.devRef .tc main_v57)
    = val_main_v71 (F := Ideal) (a0 m c) (a1 m c) (a2 m c) (a3 m c) (a4 m c) (a5 m c) (a6 m c) :=
  (W6_of_ne m ρ c main_v57 (by decide)).trans ((W5_keep m ρ c main_v57 (by simp)).trans (W4_v57 m ρ c))
theorem W6_arg0 : W6 m ρ c (Proc.devRef .tc main_arg0) = a0 m c :=
  (W6_of_ne m ρ c main_arg0 (by decide)).trans ((W5_keep m ρ c main_arg0 (by simp)).trans (W4_arg0 m ρ c))
theorem W6_arg7 : W6 m ρ c (Proc.devRef .tc main_arg7) = a7 m c :=
  (W6_of_ne m ρ c main_arg7 (by decide)).trans ((W5_keep m ρ c main_arg7 (by simp)).trans (W4_arg7 m ρ c))
theorem W6_arg8 : W6 m ρ c (Proc.devRef .tc main_arg8) = a8 m c :=
  (W6_of_ne m ρ c main_arg8 (by decide)).trans ((W5_keep m ρ c main_arg8 (by simp)).trans (W4_arg8 m ρ c))

end Cert.KernelIdeal.Bound

end
-- ==== Proof.RegionReadout.lean ====
/-
  Region 3: the readout of all 50000 rows, 2000 rows at a time.

  The region walks 25 grid points. At point t it is handed rows 2000·t … 2000·t + 1999 of four matrices — the input
  features and the three perceptrons' outputs — and the whole of four weight matrices and one bias row, runs the
  readout body on them, and writes the body's 2000 rows back to rows 2000·t … of its output. What point t writes
  back is block t of ONE array, the readout of every row (`Gin.readoutArray`), because the readout of a row reads
  that row of each matrix only; the 25 blocks fill the output, and the output ends holding that array. Everything
  is stated at whatever contents `V` the region finds its nine input arrays at.
-/
import proofs.«134524_j16475494547884_1_alg».proof.Proof.Gen.KernelIdeal.Frame
import proofs.«134524_j16475494547884_1_alg».proof.Proof.BodyValues
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the four row-blocked matrices move with the output,
    down the rows; the weights and the bias row stay at their one block; the output's row block is one of 0 … 24. -/
theorem idx_facts : ∀ t : Fin cfg3.N,
    (win3_0.index t (0 : Fin 2) = win3_9.index t (0 : Fin 2) ∧ win3_0.index t (1 : Fin 2) = 0
      ∧ win3_1.index t (0 : Fin 2) = win3_9.index t (0 : Fin 2) ∧ win3_1.index t (1 : Fin 2) = 0
      ∧ win3_2.index t (0 : Fin 2) = win3_9.index t (0 : Fin 2) ∧ win3_2.index t (1 : Fin 2) = 0
      ∧ win3_3.index t (0 : Fin 2) = win3_9.index t (0 : Fin 2) ∧ win3_3.index t (1 : Fin 2) = 0)
    ∧ (win3_4.index t (0 : Fin 2) = 0 ∧ win3_4.index t (1 : Fin 2) = 0
      ∧ win3_5.index t (0 : Fin 2) = 0 ∧ win3_5.index t (1 : Fin 2) = 0
      ∧ win3_6.index t (0 : Fin 2) = 0 ∧ win3_6.index t (1 : Fin 2) = 0
      ∧ win3_7.index t (0 : Fin 2) = 0 ∧ win3_7.index t (1 : Fin 2) = 0
      ∧ win3_8.index t (0 : Fin 2) = 0 ∧ win3_8.index t (1 : Fin 2) = 0)
    ∧ win3_9.index t (1 : Fin 2) = 0 ∧ win3_9.index t (0 : Fin 2) ≤ 24 :=
  (by decide +kernel : ∀ t : Fin grid3.N, _)

/-- Every one of the 25 row blocks of the output is some point's. -/
theorem idx_onto : ∀ (b : Fin 25), ∃ t : Fin cfg3.N, win3_9.index t = ![b.val, 0] :=
  (by decide +kernel : ∀ (b : Fin 25), ∃ t : Fin grid3.N, win3_9.index t = ![b.val, 0])

/-- The row of the arrays that row `p` of point `t`'s blocks is. -/
def rowAt (t : Fin cfg3.N) (p : Fin 2000) : Fin 50000 :=
  ⟨win3_9.index t (0 : Fin 2) * 2000 + p.val, by
    have h := (idx_facts t).2.2.2
    have hp := p.isLt
    omega⟩

/-- Row `p` of the input features' block at point `t` is row `rowAt t p` of the features. -/
theorem rows0 (c : Dev nD) (t : Fin cfg3.N) (p : Fin 2000) (k : Fin 128) :
    iblk3 V c 0 t (ix2 p k) = V c main_arg0 (ix2 (rowAt t p) k) := by
  obtain ⟨⟨e0, e1, -⟩, -⟩ := idx_facts t
  unfold iblk3
  rw [View.read_apply]
  show V c main_arg0 _ = V c main_arg0 _
  refine congrArg _ (funext fun a => Fin.ext ?_)
  match a with
  | ⟨0, _⟩ => show win3_0.index t (0 : Fin 2) * 2000 + 1 * p.val = win3_9.index t (0 : Fin 2) * 2000 + p.val; omega
  | ⟨1, _⟩ => show win3_0.index t (1 : Fin 2) * 128 + 1 * k.val = k.val; omega

/-- The same for the first perceptron's output. -/
theorem rows1 (c : Dev nD) (t : Fin cfg3.N) (p : Fin 2000) (k : Fin 128) :
    iblk3 V c 1 t (ix2 p k) = V c main_v30 (ix2 (rowAt t p) k) := by
  obtain ⟨⟨-, -, e0, e1, -⟩, -⟩ := idx_facts t
  unfold iblk3
  rw [View.read_apply]
  show V c main_v30 _ = V c main_v30 _
  refine congrArg _ (funext fun a => Fin.ext ?_)
  match a with
  | ⟨0, _⟩ => show win3_1.index t (0 : Fin 2) * 2000 + 1 * p.val = win3_9.index t (0 : Fin 2) * 2000 + p.val; omega
  | ⟨1, _⟩ => show win3_1.index t (1 : Fin 2) * 128 + 1 * k.val = k.val; omega

/-- The same for the second perceptron's output. -/
theorem rows2 (c : Dev nD) (t : Fin cfg3.N) (p : Fin 2000) (k : Fin 128) :
    iblk3 V c 2 t (ix2 p k) = V c main_v57 (ix2 (rowAt t p) k) := by
  obtain ⟨⟨-, -, -, -, e0, e1, -⟩, -⟩ := idx_facts t
  unfold iblk3
  rw [View.read_apply]
  show V c main_v57 _ = V c main_v57 _
  refine congrArg _ (funext fun a => Fin.ext ?_)
  match a with
  | ⟨0, _⟩ => show win3_2.index t (0 : Fin 2) * 2000 + 1 * p.val = win3_9.index t (0 : Fin 2) * 2000 + p.val; omega
  | ⟨1, _⟩ => show win3_2.index t (1 : Fin 2) * 128 + 1 * k.val = k.val; omega

/-- The same for the third perceptron's output. -/
theorem rows3 (c : Dev nD) (t : Fin cfg3.N) (p : Fin 2000) (k : Fin 128) :
    iblk3 V c 3 t (ix2 p k) = V c main_v84 (ix2 (rowAt t p) k) := by
  obtain ⟨⟨-, -, -, -, -, -, e0, e1⟩, -⟩ := idx_facts t
  unfold iblk3
  rw [View.read_apply]
  show V c main_v84 _ = V c main_v84 _
  refine congrArg _ (funext fun a => Fin.ext ?_)
  match a with
  | ⟨0, _⟩ => show win3_3.index t (0 : Fin 2) * 2000 + 1 * p.val = win3_9.index t (0 : Fin 2) * 2000 + p.val; omega
  | ⟨1, _⟩ => show win3_3.index t (1 : Fin 2) * 128 + 1 * k.val = k.val; omega

/-- The first weight matrix's block is the whole matrix. -/
theorem whole4 (c : Dev nD) (t : Fin cfg3.N) : iblk3 V c 4 t = V c main_v85 := by
  obtain ⟨-, ⟨e0, e1, -⟩, -⟩ := idx_facts t
  funext y
  unfold iblk3
  rw [View.read_apply]
  show V c main_v85 _ = V c main_v85 y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The second weight matrix's block is the whole matrix. -/
theorem whole5 (c : Dev nD) (t : Fin cfg3.N) : iblk3 V c 5 t = V c main_v86 := by
  obtain ⟨-, ⟨-, -, e0, e1, -⟩, -⟩ := idx_facts t
  funext y
  unfold iblk3
  rw [View.read_apply]
  show V c main_v86 _ = V c main_v86 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- The third weight matrix's block is the whole matrix. -/
theorem whole6 (c : Dev nD) (t : Fin cfg3.N) : iblk3 V c 6 t = V c main_v87 := by
  obtain ⟨-, ⟨-, -, -, -, e0, e1, -⟩, -⟩ := idx_facts t
  funext y
  unfold iblk3
  rw [View.read_apply]
  show V c main_v87 _ = V c main_v87 y
  refine congrArg _ (funext fun a => Fin.ext ?_)
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- The fourth weight matrix's block is the whole matrix. -/
theorem whole7 (c : Dev nD) (t : Fin cfg3.N) : iblk3 V c 7 t = V c main_v88 := by
  obtain ⟨-, ⟨-, -, -, -, -, -, e0, e1, -⟩, -⟩ := idx_facts t
  funext y
  unfold iblk3
  rw [View.read_apply]
  show V c main_v88 _ = V c main_v88 y
  refine congrArg _ (funext fun a => Fin.ext ?_)
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- The bias row's block is the whole row. -/
theorem whole8 (c : Dev nD) (t : Fin cfg3.N) : iblk3 V c 8 t = V c main_v89 := by
  obtain ⟨-, ⟨-, -, -, -, -, -, -, -, e0, e1⟩, -⟩ := idx_facts t
  funext y
  unfold iblk3
  rw [View.read_apply]
  show V c main_v89 _ = V c main_v89 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Entry (p, q) of the output's block at point `t` is entry (`rowAt t p`, q) of the output. -/
theorem out_emb (t : Fin cfg3.N) (p : Fin 2000) (q : Fin 128) :
    ((cfg3.win 9).blk t).view.emb (ix2 p q) = ix2 (rowAt t p) q := by
  obtain ⟨-, -, e1, -⟩ := idx_facts t
  refine funext fun a => Fin.ext ?_
  match a with
  | ⟨0, _⟩ => show win3_9.index t (0 : Fin 2) * 2000 + 1 * p.val = win3_9.index t (0 : Fin 2) * 2000 + p.val; omega
  | ⟨1, _⟩ => show win3_9.index t (1 : Fin 2) * 128 + 1 * q.val = q.val; omega

/-- WHAT POINT `t` WRITES BACK is block `t` of the readout of every row of the four matrices the region finds. -/
theorem flushed_eq (c : Dev nD) (t : Fin cfg3.N) :
    (dat3 V c).flushed 9 t = ((cfg3.win 9).blk t).view.read (Elt Ideal)
      (Gin.readoutArray (V c main_arg0) (V c main_v30) (V c main_v57) (V c main_v84)
        (V c main_v85) (V c main_v86) (V c main_v87) (V c main_v88) (V c main_v89)) := by
  show (cfg3.win 9).cut (grid3.coords t) ((dat3 V c).after 9 t) = _
  rw [after3_9]
  unfold out3_9
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k3_pay1 (iblk3 V c 0 t) (iblk3 V c 4 t) (iblk3 V c 1 t) (iblk3 V c 5 t) (iblk3 V c 2 t) (iblk3 V c 6 t)
        (iblk3 V c 3 t) (iblk3 V c 7 t) (iblk3 V c 8 t) (ix2 p q)
      = Gin.readoutArray (V c main_arg0) (V c main_v30) (V c main_v57) (V c main_v84)
          (V c main_v85) (V c main_v86) (V c main_v87) (V c main_v88) (V c main_v89) (((cfg3.win 9).blk t).view.emb (ix2 p q))
  refine (Body.readout_apply (iblk3 V c 0 t) (iblk3 V c 4 t) (iblk3 V c 1 t) (iblk3 V c 5 t) (iblk3 V c 2 t) (iblk3 V c 6 t)
    (iblk3 V c 3 t) (iblk3 V c 7 t) (iblk3 V c 8 t) p q).trans ?_
  rw [whole4 V c t, whole5 V c t, whole6 V c t, whole7 V c t, whole8 V c t, out_emb t p q]
  exact Gin.readout_congr _ _ _ _ _ _ _ _ _ _ _ _ _ p (rowAt t p) (fun k => rows0 V c t p k) (fun k => rows1 V c t p k)
    (fun k => rows2 V c t p k) (fun k => rows3 V c t p k) q

/-- An index of the output is in point `t`'s block iff each coordinate is in the block's range on its axis. -/
theorem mem_blk (t : Fin cfg3.N) (i : S50000x128.Idx) :
    i ∈ ((cfg3.win 9).blk t).view.set ↔ ∀ a : Fin 2, win3_9.index t a * S2000x128.size a ≤ (i a).val
      ∧ (i a).val < win3_9.index t a * S2000x128.size a + S2000x128.size a := by
  show i ∈ ((View.whole main_v90).slice (win3_9.rect t)).set ↔ _
  rw [View.set_slice_whole, Rect.mem_set_unit]
  exact Iff.rfl

/-- The 25 blocks fill the output: row r lies in the block of the point whose row block is r / 2000. -/
theorem cover (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ := idx_onto ⟨(i 0).val / 2000, by omega⟩
  have q0 : win3_9.index t (0 : Fin 2) = (i 0).val / 2000 := congrFun ht 0
  have q1 : win3_9.index t (1 : Fin 2) = 0 := congrFun ht 1
  refine ⟨t, flush3_9 t, ?_⟩
  rw [mem_blk]
  intro a
  match a with
  | ⟨0, _⟩ =>
    show win3_9.index t (0 : Fin 2) * 2000 ≤ (i 0).val ∧ (i 0).val < win3_9.index t (0 : Fin 2) * 2000 + 2000
    omega
  | ⟨1, _⟩ =>
    show win3_9.index t (1 : Fin 2) * 128 ≤ (i 1).val ∧ (i 1).val < win3_9.index t (1 : Fin 2) * 128 + 128
    omega

/-- THE OUTPUT after the region: the readout of every row, of the arrays as the region finds them. -/
theorem final (c : Dev nD) :
    (dat3 V c).arrAt 9 cfg3.N = Gin.readoutArray (V c main_arg0) (V c main_v30) (V c main_v57) (V c main_v84)
      (V c main_v85) (V c main_v86) (V c main_v87) (V c main_v88) (V c main_v89) :=
  (dat3 V c).arrAt_eq_of_cover 9 _ (fun t _ => flushed_eq V c t) cover

end Cert.KernelIdeal.Region3

end
-- ==== Proof.KernelValue.lean ====
/-
  The readout, and the kernel's result as a function of its arguments.

  The last stretch of host operations cuts the readout's 512-row weight matrix into its four 128-row slices and
  stores its bias vector as a one-row matrix. The last region then leaves in the result the readout of every row of
  the input features and the three hidden layers against those slices. The reference instead joins the four
  matrices side by side and multiplies by the whole weight matrix; entry by entry the two are one sum of 512 terms,
  grouped in four runs of 128 (`hostReadout_eq`). So the kernel's result array is the reference's result
  `val_main_v110` of the same nine arguments.
-/
import proofs.«134524_j16475494547884_1_alg».proof.Proof.Gen.KernelIdeal.Frame
import proofs.«134524_j16475494547884_1_alg».proof.Proof.Gen.ReferenceIdeal.Read
import proofs.«134524_j16475494547884_1_alg».proof.Proof.Boundary5
import proofs.«134524_j16475494547884_1_alg».proof.Proof.RegionReadout
import proofs.«134524_j16475494547884_1_alg».proof.Proof.HostLayers
import Idealize.ShloMosaic.Lib.StableHlo.Run

noncomputable section

namespace Cert.KernelIdeal.Bound

open Cert.KernelIdeal Cert.KernelIdeal.Gen Idealize.ShloMosaic Idealize.ShloMosaic.TcCoe Idealize.SL.Sem
open Idealize.ShloMosaic.StableHlo
open Cert.ReferenceIdeal.Read (val_main_v37 val_main_v71 val_main_v105 val_main_v110)

variable (m : (ℓ : Loc nD τ sig) → Buf (Elt Ideal) ℓ) (ρ : Dev nD → PrngReg) (c : Dev nD)

/-! ## After the last stretch of host operations -/

/-- No operation of the last stretch writes the features or a hidden layer. -/
theorem W7_keep : ∀ b ∈ ([main_arg0, main_v30, main_v57, main_v84] : List (Ref sig .tc)),
    W7 m ρ c (Proc.devRef .tc b) = W6 m ρ c (Proc.devRef .tc b) := by
  intro b hb
  simp only [List.mem_cons, List.mem_nil_iff, or_false] at hb
  rcases hb with rfl | rfl | rfl | rfl <;>
    (show StableHlo.after hostOps3 (W6 m ρ c) _ = _; after_results_simp)

theorem W7_arg0 : W7 m ρ c (Proc.devRef .tc main_arg0) = a0 m c :=
  (W7_keep m ρ c main_arg0 (by simp)).trans (W6_arg0 m ρ c)
theorem W7_v30 : W7 m ρ c (Proc.devRef .tc main_v30)
    = val_main_v37 (F := Ideal) (a0 m c) (a1 m c) (a2 m c) (a3 m c) (a4 m c) (a5 m c) (a6 m c) :=
  (W7_keep m ρ c main_v30 (by simp)).trans (W6_v30 m ρ c)
theorem W7_v57 : W7 m ρ c (Proc.devRef .tc main_v57)
    = val_main_v71 (F := Ideal) (a0 m c) (a1 m c) (a2 m c) (a3 m c) (a4 m c) (a5 m c) (a6 m c) :=
  (W7_keep m ρ c main_v57 (by simp)).trans (W6_v57 m ρ c)
theorem W7_v84 : W7 m ρ c (Proc.devRef .tc main_v84)
    = val_main_v105 (F := Ideal) (a0 m c) (a1 m c) (a2 m c) (a3 m c) (a4 m c) (a5 m c) (a6 m c) :=
  (W7_keep m ρ c main_v84 (by simp)).trans (W6_v84 m ρ c)

/-- The four 128-row slices of the readout's weights. -/
theorem W7_v85 : W7 m ρ c (Proc.devRef .tc main_v85)
    = extractStridedSlice S128x128 ![0, 0] (a7 m c) slices_S512x128_S128x128_0_0 := by
  show StableHlo.after hostOps3 (W6 m ρ c) (Proc.devRef .tc main_v85) = _
  after_results_simp
  rw [W6_arg7]
theorem W7_v86 : W7 m ρ c (Proc.devRef .tc main_v86)
    = extractStridedSlice S128x128 ![128, 0] (a7 m c) slices_S512x128_S128x128_128_0 := by
  show StableHlo.after hostOps3 (W6 m ρ c) (Proc.devRef .tc main_v86) = _
  after_results_simp
  rw [W6_arg7]
theorem W7_v87 : W7 m ρ c (Proc.devRef .tc main_v87)
    = extractStridedSlice S128x128 ![256, 0] (a7 m c) slices_S512x128_S128x128_256_0 := by
  show StableHlo.after hostOps3 (W6 m ρ c) (Proc.devRef .tc main_v87) = _
  after_results_simp
  rw [W6_arg7]
theorem W7_v88 : W7 m ρ c (Proc.devRef .tc main_v88)
    = extractStridedSlice S128x128 ![384, 0] (a7 m c) slices_S512x128_S128x128_384_0 := by
  show StableHlo.after hostOps3 (W6 m ρ c) (Proc.devRef .tc main_v88) = _
  after_results_simp
  rw [W6_arg7]

/-- The readout's bias vector, as a one-row matrix. -/
theorem W7_v89 : W7 m ρ c (Proc.devRef .tc main_v89) = shapeCast S1x128 (a8 m c) shapeCasts_S128_S1x128 := by
  show StableHlo.after hostOps3 (W6 m ρ c) (Proc.devRef .tc main_v89) = _
  after_results_simp
  rw [W6_arg8]
  rfl

/-! ## After the last region -/

/-- THE KERNEL'S RESULT: the result array ends at the reference's result of the same nine arguments. -/
theorem result : W8 m ρ c (Proc.devRef .tc main_v90)
    = val_main_v110 (F := Ideal) (a0 m c) (a1 m c) (a2 m c) (a3 m c) (a4 m c) (a5 m c) (a6 m c) (a7 m c) (a8 m c) := by
  refine (W8_arr m ρ c 9).trans ((Region3.final (V7 m ρ) c).trans ?_)
  show Gin.readoutArray (W7 m ρ c (Proc.devRef .tc main_arg0)) (W7 m ρ c (Proc.devRef .tc main_v30))
      (W7 m ρ c (Proc.devRef .tc main_v57)) (W7 m ρ c (Proc.devRef .tc main_v84)) (W7 m ρ c (Proc.devRef .tc main_v85))
      (W7 m ρ c (Proc.devRef .tc main_v86)) (W7 m ρ c (Proc.devRef .tc main_v87)) (W7 m ρ c (Proc.devRef .tc main_v88))
      (W7 m ρ c (Proc.devRef .tc main_v89)) = _
  rw [W7_arg0, W7_v30, W7_v57, W7_v84, W7_v85, W7_v86, W7_v87, W7_v88, W7_v89]
  exact (Cert.ReferenceIdeal.HostLayers.hostReadout_eq _ _ _ _ _ _ _ _ _ _ _).symm

end Cert.KernelIdeal.Bound

end
-- ==== Proof.lean ====
/-
  A graph network of three sum-aggregation layers and a linear readout, computed two ways, gives one result over the
  extended reals.

  Each layer sends a node's features h to (1 + ε) · h + Σ_{edges into the node} h[source] and then through a two-layer
  perceptron, max(max(· W1 + b1, 0) W2 + b2, 0); the readout multiplies the input features and the three layers'
  outputs, side by side as 512 features, by one 512 × 128 matrix and adds a bias. One program does the aggregation
  with host operations and the perceptrons and the readout in four pipelined regions of 2000 rows per grid point,
  the readout as four 128-feature products against the four 128-row slices of the matrix; the other does everything
  with whole-array operations. The aggregation steps are the same operations in both and are never opened. A
  perceptron of a row reads that row only, so 25 blocks of 2000 rows are the perceptron of all 50000 rows; a product
  into a zero accumulator is the host's product; a sum of 512 terms is the sum of its four runs of 128. Nothing here
  needs an entry to be finite: only commutativity and associativity of addition are used.

  Proof/Layers.lean states the layers entry by entry; Proof/BodyValues.lean reads the two kernel bodies;
  Proof/RegionMlp0–2.lean and Proof/RegionReadout.lean turn "what a grid point writes back" into "what the output
  array holds"; Proof/HostLayers.lean reads the reference's operations; Proof/Boundary1,3,5.lean and
  Proof/KernelValue.lean follow the buffers from the launch to the result; Proof/ValueRun.lean is the run itself.
-/
import proofs.«134524_j16475494547884_1_alg».proof.Defs
import proofs.«134524_j16475494547884_1_alg».proof.Proof.Gen.Kernel
import proofs.«134524_j16475494547884_1_alg».proof.Proof.Gen.Kernel.Skeleton
import proofs.«134524_j16475494547884_1_alg».proof.Proof.Gen.Kernel.Launch
import proofs.«134524_j16475494547884_1_alg».proof.Proof.Gen.Kernel.Points
import proofs.«134524_j16475494547884_1_alg».proof.Proof.Gen.Kernel.Frame
import proofs.«134524_j16475494547884_1_alg».proof.Proof.Gen.KernelIdeal
import proofs.«134524_j16475494547884_1_alg».proof.Proof.Gen.KernelIdeal.Skeleton
import proofs.«134524_j16475494547884_1_alg».proof.Proof.Gen.KernelIdeal.Launch
import proofs.«134524_j16475494547884_1_alg».proof.Proof.Gen.KernelIdeal.Points
import proofs.«134524_j16475494547884_1_alg».proof.Proof.Gen.KernelIdeal.Frame
import proofs.«134524_j16475494547884_1_alg».proof.Proof.Gen.ReferenceIdeal
import proofs.«134524_j16475494547884_1_alg».proof.Proof.Gen.ReferenceIdeal.Run
import proofs.«134524_j16475494547884_1_alg».proof.Proof.Gen.ReferenceIdeal.Read
import proofs.«134524_j16475494547884_1_alg».proof.Proof.Gen.Pre_finite_inputs
import proofs.«134524_j16475494547884_1_alg».proof.Proof.ValueRun
import proofs.«134524_j16475494547884_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the reference's result function of
    those arguments in their result arrays. -/
theorem algebraic : Cert.algebraic_KernelIdeal_ReferenceIdeal := by
  intro m ρ m' ρ' _ hagree
  refine ⟨fun c => Cert.ReferenceIdeal.Read.val_main_v110 (F := Ideal) (Cert.KernelIdeal.Bound.a0 m c)
      (Cert.KernelIdeal.Bound.a1 m c) (Cert.KernelIdeal.Bound.a2 m c) (Cert.KernelIdeal.Bound.a3 m c)
      (Cert.KernelIdeal.Bound.a4 m c) (Cert.KernelIdeal.Bound.a5 m c) (Cert.KernelIdeal.Bound.a6 m c)
      (Cert.KernelIdeal.Bound.a7 m c) (Cert.KernelIdeal.Bound.a8 m c), ?_, ?_⟩
  · exact (θ_run Cert.KernelIdeal.defs _ _).mono
      (fun r h c => ⟨(h c).1.trans (Cert.KernelIdeal.Bound.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v110_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
